-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S10000x128 : Shape := ⟨2, ![10000, 128]⟩
abbrev S10000x1 : Shape := ⟨2, ![10000, 1]⟩
abbrev S100000x1 : Shape := ⟨2, ![100000, 1]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1700000x64 : Shape := ⟨2, ![1700000, 64]⟩
abbrev S10000x64 : Shape := ⟨2, ![10000, 64]⟩
abbrev S1x64 : Shape := ⟨2, ![1, 64]⟩

abbrev nBuf : Space → Nat
  | .hbm => 111
  | .vmem => 54
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S100000x1, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S100000x1, .f32⟩
  | .hbm, ⟨90, _⟩ => ⟨S1x128, .f32⟩
  | .hbm, ⟨91, _⟩ => ⟨S100000x128, .f32⟩
  | .hbm, ⟨92, _⟩ => ⟨S100000x64, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x1, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S100000x1, .f32⟩
  | .hbm, ⟨109, _⟩ => ⟨S1x64, .f32⟩
  | .hbm, ⟨110, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S10000x128, .f32⟩
  | .local _ .vmem, ⟨24, _⟩ => ⟨S10000x128, .f32⟩
  | .local _ .vmem, ⟨25, _⟩ => ⟨S10000x1, .f32⟩
  | .local _ .vmem, ⟨26, _⟩ => ⟨S10000x1, .f32⟩
  | .local _ .vmem, ⟨27, _⟩ => ⟨S10000x128, .f32⟩
  | .local _ .vmem, ⟨28, _⟩ => ⟨S10000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S2000x64, .f32⟩
  | .local _ .vmem, ⟨40, _⟩ => ⟨S2000x64, .f32⟩
  | .local _ .vmem, ⟨41, _⟩ => ⟨S10000x64, .f32⟩
  | .local _ .vmem, ⟨42, _⟩ => ⟨S10000x64, .f32⟩
  | .local _ .vmem, ⟨43, _⟩ => ⟨S10000x1, .f32⟩
  | .local _ .vmem, ⟨44, _⟩ => ⟨S10000x1, .f32⟩
  | .local _ .vmem, ⟨45, _⟩ => ⟨S10000x64, .f32⟩
  | .local _ .vmem, ⟨46, _⟩ => ⟨S10000x64, .f32⟩
  | .local _ .vmem, ⟨47, _⟩ => ⟨S2000x64, .f32⟩
  | .local _ .vmem, ⟨48, _⟩ => ⟨S2000x64, .f32⟩
  | .local _ .vmem, ⟨49, _⟩ => ⟨S2000x1, .f32⟩
  | .local _ .vmem, ⟨50, _⟩ => ⟨S2000x1, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  bcast_S64_S1x64_1 : S64.BroadcastsInDim S1x64 (![1] : Fin 1 → Fin S1x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S1700000x64.size a
  hwx7_0 : ∀ i : grid7.Coords, EltTy.bits .f32 = 32 ∨ (Rect.block (s := S1700000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S1700000x64.size a
  hwx7_2 : ∀ i : grid7.Coords, EltTy.bits .f32 = 32 ∨ (Rect.block (s := S1700000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .f32 = 32 ∨ (Rect.block (s := S100000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x64.size a ≤ S100000x64.size a
  hwx8_3 : ∀ i : grid8.Coords, EltTy.bits .f32 = 32 ∨ (Rect.block (s := S100000x64) S2000x64.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v65) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v73) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v75) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v78) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v79) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v80) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v81) S2000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .f32⟩
  | 52 => ⟨S100000, .f32⟩
  | 53 => ⟨S100000, .f32⟩
  | 54 => ⟨S1700000x1, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S1700000x1, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S1700000x1, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S100000x1, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«178718_j29798483100071_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.Host.lean ====
/-
  The three whole-array functions of one graph-convolution layer, written with the host's own operations, and each read
  at one entry (row r, column q):
    product   (h, W)            ↦ h · W                         entry = Σ_k h(r, k) * W(k, q)
    scaling   (g, ncol)         ↦ (ncol repeated along columns) * g      entry = ncol(r, 0) * g(r, q)
    epilogue  (a, ccol, brow)   ↦ a / (ccol repeated) + (brow repeated)  entry = a(r, q) / ccol(r, 0) + brow(0, q)
  and the epilogue clamped below at zero for the first two layers.
-/
import proofs.«178718_j29798483100071_1_alg».proof.ReferenceIdeal
import proofs.«178718_j29798483100071_1_alg».proof.Proof.Gen.ReferenceIdeal
import proofs.«178718_j29798483100071_1_alg».proof.Proof.LibHostDotSum
import Idealize.ShloMosaic.Lib.ValueLayout
import Idealize.ShloMosaic.Lib.ValueIdx
import Idealize.ShloMosaic.Lib.Pipeline.Value
import Idealize.ShloMosaic.PureOps.Ideal.Laws

noncomputable section

namespace Cert.Layer

open Idealize.ShloMosaic Idealize.ShloMosaic.ValueIdx Cert.ReferenceIdeal Cert.ReferenceIdeal.Gen

/-! ## The functions -/

def mat128 (h : FVec Ideal S100000x128 .f32) (W : FVec Ideal S128x128 .f32) : FVec Ideal S100000x128 .f32 :=
  Host.dotGeneral dot_S100000x128_S128x128_S100000x128_1_0_0_1_n_n none h W

def mat64 (h : FVec Ideal S100000x128 .f32) (W : FVec Ideal S128x64 .f32) : FVec Ideal S100000x64 .f32 :=
  Host.dotGeneral dot_S100000x128_S128x64_S100000x64_1_0_0_1_n_n none h W

def scale128 (g : FVec Ideal S1700000x128 .f32) (ncol : FVec Ideal S1700000x1 .f32) : FVec Ideal S1700000x128 .f32 :=
  mulf (broadcastInDim S1700000x128 ![0, 1] bcast_S1700000x1_S1700000x128_0_1 ncol) g

def scale64 (g : FVec Ideal S1700000x64 .f32) (ncol : FVec Ideal S1700000x1 .f32) : FVec Ideal S1700000x64 .f32 :=
  mulf (broadcastInDim S1700000x64 ![0, 1] bcast_S1700000x1_S1700000x64_0_1 ncol) g

def post128 (a : FVec Ideal S100000x128 .f32) (ccol : FVec Ideal S100000x1 .f32) (brow : FVec Ideal S1x128 .f32) : FVec Ideal S100000x128 .f32 :=
  maximumf (addf (Host.divf a (broadcastInDim S100000x128 ![0, 1] bcast_S100000x1_S100000x128_0_1 ccol))
      (broadcastInDim S100000x128 ![0, 1] bcast_S1x128_S100000x128_0_1 brow))
    (broadcastInDim S100000x128 ![] bcast_S_S100000x128 (constant (F := Ideal) S_ .f32 0x00000000#32))

def post64 (a : FVec Ideal S100000x64 .f32) (ccol : FVec Ideal S100000x1 .f32) (brow : FVec Ideal S1x64 .f32) : FVec Ideal S100000x64 .f32 :=
  addf (Host.divf a (broadcastInDim S100000x64 ![0, 1] bcast_S100000x1_S100000x64_0_1 ccol))
    (broadcastInDim S100000x64 ![0, 1] bcast_S1x64_S100000x64_0_1 brow)

/-! ## Repeating a column, a row, a scalar: read at an entry -/

theorem bcol_at {a b : ℕ} (v : (⟨2, ![a, 1]⟩ : Shape).Idx → EReal) (h : (⟨2, ![a, 1]⟩ : Shape).BroadcastsInDim ⟨2, ![a, b]⟩ ![0, 1])
    (r : Fin a) (q : Fin b) : broadcastInDim ⟨2, ![a, b]⟩ ![0, 1] h v (ix2 r q) = v (ix2 r (0 : Fin 1)) := by
  refine broadcastInDim_apply _ h v (ix2 r q) (ix2 r (0 : Fin 1)) fun ax => ?_
  match ax with
  | ⟨0, _⟩ =>
    show r.val = if a = 1 then 0 else r.val
    split
    · have := r.isLt; omega
    · rfl
  | ⟨1, _⟩ => rfl

theorem brow_at {a b : ℕ} (v : (⟨2, ![1, b]⟩ : Shape).Idx → EReal) (h : (⟨2, ![1, b]⟩ : Shape).BroadcastsInDim ⟨2, ![a, b]⟩ ![0, 1])
    (r : Fin a) (q : Fin b) : broadcastInDim ⟨2, ![a, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

theorem bscalar_at {t : Shape} (v : (⟨0, ![]⟩ : Shape).Idx → EReal) (h : (⟨0, ![]⟩ : Shape).BroadcastsInDim t ![]) (j : t.Idx) :
    broadcastInDim t ![] h v j = v (fun a => a.elim0) :=
  broadcastInDim_apply _ h v j _ fun ax => ax.elim0

/-! ## The dimension numbers of the two host products -/

theorem plainHost128 : Cert.LibMatmulSum.Plain dot_S100000x128_S128x128_S100000x128_1_0_0_1_n_n where
  rank := rfl
  size := rfl
  l0 := fun i q => by
    unfold DotDims.lhsIdx
    rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
    rfl
  l1 := fun i q => dot_S100000x128_S128x128_S100000x128_1_0_0_1_n_n.lhsIdx_val_of_single rfl i q
  r0 := fun i q => dot_S100000x128_S128x128_S100000x128_1_0_0_1_n_n.rhsIdx_val_of_single rfl i q
  r1 := fun i q => by
    unfold DotDims.rhsIdx
    rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
    rfl

theorem plainHost64 : Cert.LibMatmulSum.Plain dot_S100000x128_S128x64_S100000x64_1_0_0_1_n_n where
  rank := rfl
  size := rfl
  l0 := fun i q => by
    unfold DotDims.lhsIdx
    rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
    rfl
  l1 := fun i q => dot_S100000x128_S128x64_S100000x64_1_0_0_1_n_n.lhsIdx_val_of_single rfl i q
  r0 := fun i q => dot_S100000x128_S128x64_S100000x64_1_0_0_1_n_n.rhsIdx_val_of_single rfl i q
  r1 := fun i q => by
    unfold DotDims.rhsIdx
    rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
    rfl

/-! ## The functions at an entry -/

theorem mat128_at (h : FVec Ideal S100000x128 .f32) (W : FVec Ideal S128x128 .f32) (r : Fin 100000) (q : Fin 128) :
    mat128 h W (ix2 r q) = ∑ k : Fin 128, h (ix2 r k) * W (ix2 k q) :=
  Cert.LibMatmulSum.hostDot_at plainHost128 none h W r q

theorem mat64_at (h : FVec Ideal S100000x128 .f32) (W : FVec Ideal S128x64 .f32) (r : Fin 100000) (q : Fin 64) :
    mat64 h W (ix2 r q) = ∑ k : Fin 128, h (ix2 r k) * W (ix2 k q) :=
  Cert.LibMatmulSum.hostDot_at plainHost64 none h W r q

theorem scale128_at (g : FVec Ideal S1700000x128 .f32) (ncol : FVec Ideal S1700000x1 .f32) (r : Fin 1700000) (q : Fin 128) :
    scale128 g ncol (ix2 r q) = ncol (ix2 r (0 : Fin 1)) * g (ix2 r q) := by
  unfold scale128
  rw [mulf_apply, bcol_at]

theorem scale64_at (g : FVec Ideal S1700000x64 .f32) (ncol : FVec Ideal S1700000x1 .f32) (r : Fin 1700000) (q : Fin 64) :
    scale64 g ncol (ix2 r q) = ncol (ix2 r (0 : Fin 1)) * g (ix2 r q) := by
  unfold scale64
  rw [mulf_apply, bcol_at]

theorem post128_at (a : FVec Ideal S100000x128 .f32) (ccol : FVec Ideal S100000x1 .f32) (brow : FVec Ideal S1x128 .f32) (r : Fin 100000) (q : Fin 128) :
    post128 a ccol brow (ix2 r q)
      = max (Ideal.div (a (ix2 r q)) (ccol (ix2 r (0 : Fin 1))) + brow (ix2 (0 : Fin 1) q)) (Ideal.ofBits .f32 0x00000000#32) := by
  unfold post128
  rw [maximumf_apply, addf_apply, bscalar_at, brow_at]
  simp only [Host.divf, Ideal.hostDivf_def]
  rw [bcol_at]
  rfl

theorem post64_at (a : FVec Ideal S100000x64 .f32) (ccol : FVec Ideal S100000x1 .f32) (brow : FVec Ideal S1x64 .f32) (r : Fin 100000) (q : Fin 64) :
    post64 a ccol brow (ix2 r q)
      = Ideal.div (a (ix2 r q)) (ccol (ix2 r (0 : Fin 1))) + brow (ix2 (0 : Fin 1) q) := by
  unfold post64
  rw [addf_apply, brow_at]
  simp only [Host.divf, Ideal.hostDivf_def]
  rw [bcol_at]

end Cert.Layer

end
-- ==== Proof.Layer.lean ====
/-
  One graph-convolution layer as the host's operations compute it, and the four values the three layers share, all as
  whole-array functions:
    src, dst   the source and target node of every edge, the self loops appended (from the edge list);
    deg        how many edges end at each node (a sum of ones over the edges' targets);
    nrm        per edge, 1/sqrt(deg) at its source times 1/sqrt(deg) at its target (0 where deg is not positive);
    cnt        max(deg, 1);
    layer      h ↦ epilogue( Σ over the edges into each node of  nrm * (h · W)[source] ,  cnt, bias ).
  The reference's result is three layers, each fed the one before (the first two clamped below at zero).
-/
import proofs.«178718_j29798483100071_1_alg».proof.Proof.Host
import proofs.«178718_j29798483100071_1_alg».proof.Proof.RefRun

set_option maxRecDepth 16384

noncomputable section

namespace Cert.Layer

open Idealize.ShloMosaic Idealize.ShloMosaic.TcCoe Idealize.SL.Sem Cert.ReferenceIdeal Cert.ReferenceIdeal.Gen

/-! ## The shared values, from the edge list -/

def srcOf (a1 : IVec S2x1600000 32) : IVec S1700000 32 :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

def dstOf (a1 : IVec S2x1600000 32) : IVec S1700000 32 :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

def degOf (a1 : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf a1)) (broadcastInDim S1700000 ![] bcast_S_S1700000 (constant S_ .f32 0x3F800000#32))

def dinvOf (a1 : IVec S2x1600000 32) : FVec Ideal S100000 .f32 :=
  select (cmpf (F := Ideal) .ogt (degOf a1) (broadcastInDim S100000 ![] bcast_S_S100000 (constant S_ .f32 0x00000000#32))) (Host.divf (broadcastInDim S100000 ![] bcast_S_S100000 (constant S_ .f32 0x3F800000#32)) (Host.sqrt (degOf a1))) (broadcastInDim S100000 ![] bcast_S_S100000 (id (constant S_ .f32 0x00000000#32)))

/-- Node indices as the gather takes them: a negative index wrapped by the number of nodes, as a column. -/
def wrapCol (s : IVec S1700000 32) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

def nrmOf (a1 : IVec S2x1600000 32) : FVec Ideal S1700000 .f32 :=
  mulf (Host.gather gather_S100000_S1700000x1_S1700000_n_0_n_n_0_1_1 (dinvOf a1) (wrapCol (srcOf a1)))
    (Host.gather gather_S100000_S1700000x1_S1700000_n_0_n_n_0_1_1 (dinvOf a1) (wrapCol (dstOf a1)))

def cntOf (a1 : IVec S2x1600000 32) : FVec Ideal S100000 .f32 :=
  maximumf (degOf a1) (broadcastInDim S100000 ![] bcast_S_S100000 (constant S_ .f32 0x3F800000#32))

/-! ## The pieces between the three dense functions -/

def gath128 (hw : FVec Ideal S100000x128 .f32) (s : IVec S1700000 32) : FVec Ideal S1700000x128 .f32 :=
  Host.gather gather_S100000x128_S1700000x1_S1700000x128_1_0_n_n_0_1_1128 hw (wrapCol s)

def gath64 (hw : FVec Ideal S100000x64 .f32) (s : IVec S1700000 32) : FVec Ideal S1700000x64 .f32 :=
  Host.gather gather_S100000x64_S1700000x1_S1700000x64_1_0_n_n_0_1_164 hw (wrapCol s)

def asCol (n : FVec Ideal S1700000 .f32) : FVec Ideal S1700000x1 .f32 :=
  broadcastInDim S1700000x1 ![0] bcast_S1700000_S1700000x1_0 n

def sum128 (d : IVec S1700000 32) (msg : FVec Ideal S1700000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) msg

def sum64 (d : IVec S1700000 32) (msg : FVec Ideal S1700000x64 .f32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) msg

def cntCol (cn : FVec Ideal S100000 .f32) : FVec Ideal S100000x1 .f32 :=
  broadcastInDim S100000x1 ![0] bcast_S100000_S100000x1_0 cn

def biasRow128 (b : FVec Ideal S128 .f32) : FVec Ideal S1x128 .f32 :=
  broadcastInDim S1x128 ![1] bcast_S128_S1x128_1 b

def biasRow64 (b : FVec Ideal S64 .f32) : FVec Ideal S1x64 .f32 :=
  broadcastInDim S1x64 ![1] bcast_S64_S1x64_1 b

/-! ## A layer -/

def layer128 (h : FVec Ideal S100000x128 .f32) (W : FVec Ideal S128x128 .f32) (b : FVec Ideal S128 .f32)
    (s d : IVec S1700000 32) (n : FVec Ideal S1700000 .f32) (cn : FVec Ideal S100000 .f32) :
    FVec Ideal S100000x128 .f32 :=
  post128 (sum128 d (scale128 (gath128 (mat128 h W) s) (asCol n))) (cntCol cn) (biasRow128 b)

def layer64 (h : FVec Ideal S100000x128 .f32) (W : FVec Ideal S128x64 .f32) (b : FVec Ideal S64 .f32)
    (s d : IVec S1700000 32) (n : FVec Ideal S1700000 .f32) (cn : FVec Ideal S100000 .f32) :
    FVec Ideal S100000x64 .f32 :=
  post64 (sum64 d (scale64 (gath64 (mat64 h W) s) (asCol n))) (cntCol cn) (biasRow64 b)

/-- The three layers, from the eight arguments. -/
def net (x : FVec Ideal S100000x128 .f32) (a1 : IVec S2x1600000 32)
    (W1 : FVec Ideal S128x128 .f32) (b1 : FVec Ideal S128 .f32)
    (W2 : FVec Ideal S128x128 .f32) (b2 : FVec Ideal S128 .f32)
    (W3 : FVec Ideal S128x64 .f32) (b3 : FVec Ideal S64 .f32) :
    FVec Ideal S100000x64 .f32 :=
  layer64 (layer128 (layer128 x W1 b1 (srcOf a1) (dstOf a1) (nrmOf a1) (cntOf a1)) W2 b2 (srcOf a1) (dstOf a1) (nrmOf a1) (cntOf a1))
    W3 b3 (srcOf a1) (dstOf a1) (nrmOf a1) (cntOf a1)

/-- The reference's result is the three layers of its arguments: the two are one term. -/
theorem ref_eq (m : (ℓ : Loc nD τ sig) → Buf (Elt Ideal) ℓ) (c : Dev nD) :
    Cert.ReferenceIdeal.ValueP.res_main_v95 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v95 net layer64 layer128 post64 post128 sum64 sum128 scale64 scale128 gath64 gath128 mat64 mat128
    asCol cntCol biasRow64 biasRow128 nrmOf cntOf wrapCol dinvOf degOf srcOf dstOf
  rfl

end Cert.Layer

end
-- ==== Proof.KRun.lean ====
/-
  The kernel program's run with its result named: every weakly fair execution of @main terminates without a fault, the
  result array holding what the last of the eighteen segment boundaries' contents give it, every argument as launched.
  (The launch over the program's segments is the one that shows the arguments unchanged; here the final state's
  contents are read at the result buffer as well.)
-/
import proofs.«178718_j29798483100071_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v81) = W18 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v81 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Hand

end
-- ==== Proof.Walk.lean ====
/-
  Which buffers each stretch of host operations writes, and so which it leaves alone: a buffer that a stretch does not
  write holds after the stretch what it held before; a region changes only its own arrays. From these, each value that
  is computed once and read again later (the source and target node of every edge, the edge weights, the node counts,
  the weight and bias arguments) is carried from the boundary where it is read back to where it was made.
-/
import proofs.«178718_j29798483100071_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch writes -/

/-- The buffers `hostOps0` writes. -/
abbrev hostOps0_wr : List (Ref sig .tc) := [main_v0, main_v1, main_v2, main_v3, main_v4, main_v5, main_v6, main_cst, main_v7, main_cst_0, main_v8, main_v9, main_v10, main_cst_1, main_v11, main_v12, main_v13, main_cst_2, main_v14, main_v15, main_cst_3]
theorem hostOps0_wr_sub : (hostOps0 : List (HloOp τ sig (Elt F))).Forall fun op => op.writes ⊆ (hostOps0_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0` does not write is the same after it as before. -/
theorem keepW1 (c : Dev nD) (r : Ref sig .tc) (h : r ∉ hostOps0_wr) : W1 m ρ c (Proc.devRef .tc r) = W0 m ρ c (Proc.devRef .tc r) :=
  StableHlo.after_of_writes_sub hostOps0 _ hostOps0_wr_sub h

/-- The buffers `hostOps0_1` writes. -/
abbrev hostOps0_1_wr : List (Ref sig .tc) := [main_call0_v0, main_call0_v1, main_v16]
theorem hostOps0_1_wr_sub : (hostOps0_1 : List (HloOp τ sig (Elt F))).Forall fun op => op.writes ⊆ (hostOps0_1_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_1` does not write is the same after it as before. -/
theorem keepW2 (c : Dev nD) (r : Ref sig .tc) (h : r ∉ hostOps0_1_wr) : W2 m ρ c (Proc.devRef .tc r) = W1 m ρ c (Proc.devRef .tc r) :=
  StableHlo.after_of_writes_sub hostOps0_1 _ hostOps0_1_wr_sub h

/-- The buffers `hostOps0_2` writes. -/
abbrev hostOps0_2_wr : List (Ref sig .tc) := [main_c, main_v17, main_v18, main_c_4, main_v19, main_v20, main_v21, main_v22, main_v23, main_c_5, main_v24, main_v25, main_c_6, main_v26, main_v27, main_v28, main_v29, main_v30, main_v31, main_cst_7, main_v32, main_v33]
theorem hostOps0_2_wr_sub : (hostOps0_2 : List (HloOp τ sig (Elt F))).Forall fun op => op.writes ⊆ (hostOps0_2_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_2` does not write is the same after it as before. -/
theorem keepW3 (c : Dev nD) (r : Ref sig .tc) (h : r ∉ hostOps0_2_wr) : W3 m ρ c (Proc.devRef .tc r) = W2 m ρ c (Proc.devRef .tc r) :=
  StableHlo.after_of_writes_sub hostOps0_2 _ hostOps0_2_wr_sub h

/-- The buffers `hostOps1` writes. -/
abbrev hostOps1_wr : List (Ref sig .tc) := [main_c_8, main_v35, main_v36, main_c_9, main_v37, main_v38, main_v39, main_v40, main_v41, main_v42]
theorem hostOps1_wr_sub : (hostOps1 : List (HloOp τ sig (Elt F))).Forall fun op => op.writes ⊆ (hostOps1_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1` does not write is the same after it as before. -/
theorem keepW5 (c : Dev nD) (r : Ref sig .tc) (h : r ∉ hostOps1_wr) : W5 m ρ c (Proc.devRef .tc r) = W4 m ρ c (Proc.devRef .tc r) :=
  StableHlo.after_of_writes_sub hostOps1 _ hostOps1_wr_sub h

/-- The buffers `hostOps2` writes. -/
abbrev hostOps2_wr : List (Ref sig .tc) := [main_cst_10, main_v44, main_v45, main_v46, main_v47, main_v48]
theorem hostOps2_wr_sub : (hostOps2 : List (HloOp τ sig (Elt F))).Forall fun op => op.writes ⊆ (hostOps2_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps2` does not write is the same after it as before. -/
theorem keepW7 (c : Dev nD) (r : Ref sig .tc) (h : r ∉ hostOps2_wr) : W7 m ρ c (Proc.devRef .tc r) = W6 m ρ c (Proc.devRef .tc r) :=
  StableHlo.after_of_writes_sub hostOps2 _ hostOps2_wr_sub h

/-- The buffers `hostOps4` writes. -/
abbrev hostOps4_wr : List (Ref sig .tc) := [main_c_11, main_v51, main_v52, main_c_12, main_v53, main_v54, main_v55, main_v56, main_v57, main_v58]
theorem hostOps4_wr_sub : (hostOps4 : List (HloOp τ sig (Elt F))).Forall fun op => op.writes ⊆ (hostOps4_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps4` does not write is the same after it as before. -/
theorem keepW10 (c : Dev nD) (r : Ref sig .tc) (h : r ∉ hostOps4_wr) : W10 m ρ c (Proc.devRef .tc r) = W9 m ρ c (Proc.devRef .tc r) :=
  StableHlo.after_of_writes_sub hostOps4 _ hostOps4_wr_sub h

/-- The buffers `hostOps5` writes. -/
abbrev hostOps5_wr : List (Ref sig .tc) := [main_cst_13, main_v60, main_v61, main_v62, main_v63, main_v64]
theorem hostOps5_wr_sub : (hostOps5 : List (HloOp τ sig (Elt F))).Forall fun op => op.writes ⊆ (hostOps5_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5` does not write is the same after it as before. -/
theorem keepW12 (c : Dev nD) (r : Ref sig .tc) (h : r ∉ hostOps5_wr) : W12 m ρ c (Proc.devRef .tc r) = W11 m ρ c (Proc.devRef .tc r) :=
  StableHlo.after_of_writes_sub hostOps5 _ hostOps5_wr_sub h

/-- The buffers `hostOps7` writes. -/
abbrev hostOps7_wr : List (Ref sig .tc) := [main_c_14, main_v67, main_v68, main_c_15, main_v69, main_v70, main_v71, main_v72, main_v73, main_v74]
theorem hostOps7_wr_sub : (hostOps7 : List (HloOp τ sig (Elt F))).Forall fun op => op.writes ⊆ (hostOps7_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps7` does not write is the same after it as before. -/
theorem keepW15 (c : Dev nD) (r : Ref sig .tc) (h : r ∉ hostOps7_wr) : W15 m ρ c (Proc.devRef .tc r) = W14 m ρ c (Proc.devRef .tc r) :=
  StableHlo.after_of_writes_sub hostOps7 _ hostOps7_wr_sub h

/-- The buffers `hostOps8` writes. -/
abbrev hostOps8_wr : List (Ref sig .tc) := [main_cst_16, main_v76, main_v77, main_v78, main_v79, main_v80]
theorem hostOps8_wr_sub : (hostOps8 : List (HloOp τ sig (Elt F))).Forall fun op => op.writes ⊆ (hostOps8_wr.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps8` does not write is the same after it as before. -/
theorem keepW17 (c : Dev nD) (r : Ref sig .tc) (h : r ∉ hostOps8_wr) : W17 m ρ c (Proc.devRef .tc r) = W16 m ρ c (Proc.devRef .tc r) :=
  StableHlo.after_of_writes_sub hostOps8 _ hostOps8_wr_sub h

/-! ## Values carried from where they are read back to where they were made -/
theorem v3_at4 (c : Dev nD) : W4 m ρ c (Proc.devRef .tc main_v3) = W3 m ρ c (Proc.devRef .tc main_v3) :=
  W4_of_ne m ρ c main_v3 (by decide)
theorem v3_at9 (c : Dev nD) : W9 m ρ c (Proc.devRef .tc main_v3) = W3 m ρ c (Proc.devRef .tc main_v3) :=
  ((W9_of_ne m ρ c main_v3 (by decide)).trans ((W8_of_ne m ρ c main_v3 (by decide)).trans ((keepW7 m ρ c main_v3 (by decide)).trans ((W6_of_ne m ρ c main_v3 (by decide)).trans (keepW5 m ρ c main_v3 (by decide)))))).trans (v3_at4 m ρ c)
theorem v3_at14 (c : Dev nD) : W14 m ρ c (Proc.devRef .tc main_v3) = W3 m ρ c (Proc.devRef .tc main_v3) :=
  ((W14_of_ne m ρ c main_v3 (by decide)).trans ((W13_of_ne m ρ c main_v3 (by decide)).trans ((keepW12 m ρ c main_v3 (by decide)).trans ((W11_of_ne m ρ c main_v3 (by decide)).trans (keepW10 m ρ c main_v3 (by decide)))))).trans (v3_at9 m ρ c)
theorem v31_at4 (c : Dev nD) : W4 m ρ c (Proc.devRef .tc main_v31) = W3 m ρ c (Proc.devRef .tc main_v31) :=
  W4_of_ne m ρ c main_v31 (by decide)
theorem v31_at9 (c : Dev nD) : W9 m ρ c (Proc.devRef .tc main_v31) = W3 m ρ c (Proc.devRef .tc main_v31) :=
  ((W9_of_ne m ρ c main_v31 (by decide)).trans ((W8_of_ne m ρ c main_v31 (by decide)).trans ((keepW7 m ρ c main_v31 (by decide)).trans ((W6_of_ne m ρ c main_v31 (by decide)).trans (keepW5 m ρ c main_v31 (by decide)))))).trans (v31_at4 m ρ c)
theorem v31_at14 (c : Dev nD) : W14 m ρ c (Proc.devRef .tc main_v31) = W3 m ρ c (Proc.devRef .tc main_v31) :=
  ((W14_of_ne m ρ c main_v31 (by decide)).trans ((W13_of_ne m ρ c main_v31 (by decide)).trans ((keepW12 m ρ c main_v31 (by decide)).trans ((W11_of_ne m ρ c main_v31 (by decide)).trans (keepW10 m ρ c main_v31 (by decide)))))).trans (v31_at9 m ρ c)
theorem v6_at6 (c : Dev nD) : W6 m ρ c (Proc.devRef .tc main_v6) = W3 m ρ c (Proc.devRef .tc main_v6) :=
  (W6_of_ne m ρ c main_v6 (by decide)).trans ((keepW5 m ρ c main_v6 (by decide)).trans (W4_of_ne m ρ c main_v6 (by decide)))
theorem v6_at11 (c : Dev nD) : W11 m ρ c (Proc.devRef .tc main_v6) = W3 m ρ c (Proc.devRef .tc main_v6) :=
  ((W11_of_ne m ρ c main_v6 (by decide)).trans ((keepW10 m ρ c main_v6 (by decide)).trans ((W9_of_ne m ρ c main_v6 (by decide)).trans ((W8_of_ne m ρ c main_v6 (by decide)).trans (keepW7 m ρ c main_v6 (by decide)))))).trans (v6_at6 m ρ c)
theorem v6_at16 (c : Dev nD) : W16 m ρ c (Proc.devRef .tc main_v6) = W3 m ρ c (Proc.devRef .tc main_v6) :=
  ((W16_of_ne m ρ c main_v6 (by decide)).trans ((keepW15 m ρ c main_v6 (by decide)).trans ((W14_of_ne m ρ c main_v6 (by decide)).trans ((W13_of_ne m ρ c main_v6 (by decide)).trans (keepW12 m ρ c main_v6 (by decide)))))).trans (v6_at11 m ρ c)
theorem v33_at6 (c : Dev nD) : W6 m ρ c (Proc.devRef .tc main_v33) = W3 m ρ c (Proc.devRef .tc main_v33) :=
  (W6_of_ne m ρ c main_v33 (by decide)).trans ((keepW5 m ρ c main_v33 (by decide)).trans (W4_of_ne m ρ c main_v33 (by decide)))
theorem v33_at11 (c : Dev nD) : W11 m ρ c (Proc.devRef .tc main_v33) = W3 m ρ c (Proc.devRef .tc main_v33) :=
  ((W11_of_ne m ρ c main_v33 (by decide)).trans ((keepW10 m ρ c main_v33 (by decide)).trans ((W9_of_ne m ρ c main_v33 (by decide)).trans ((W8_of_ne m ρ c main_v33 (by decide)).trans (keepW7 m ρ c main_v33 (by decide)))))).trans (v33_at6 m ρ c)
theorem v33_at16 (c : Dev nD) : W16 m ρ c (Proc.devRef .tc main_v33) = W3 m ρ c (Proc.devRef .tc main_v33) :=
  ((W16_of_ne m ρ c main_v33 (by decide)).trans ((keepW15 m ρ c main_v33 (by decide)).trans ((W14_of_ne m ρ c main_v33 (by decide)).trans ((W13_of_ne m ρ c main_v33 (by decide)).trans (keepW12 m ρ c main_v33 (by decide)))))).trans (v33_at11 m ρ c)
theorem arg0_at3 (c : Dev nD) : W3 m ρ c (Proc.devRef .tc main_arg0) = m ((c : Thread nD τ).loc main_arg0) :=
  ((keepW3 m ρ c main_arg0 (by decide)).trans ((keepW2 m ρ c main_arg0 (by decide)).trans (keepW1 m ρ c main_arg0 (by decide)))).trans rfl
theorem arg2_at3 (c : Dev nD) : W3 m ρ c (Proc.devRef .tc main_arg2) = m ((c : Thread nD τ).loc main_arg2) :=
  ((keepW3 m ρ c main_arg2 (by decide)).trans ((keepW2 m ρ c main_arg2 (by decide)).trans (keepW1 m ρ c main_arg2 (by decide)))).trans rfl
theorem arg3_at6 (c : Dev nD) : W6 m ρ c (Proc.devRef .tc main_arg3) = m ((c : Thread nD τ).loc main_arg3) :=
  ((W6_of_ne m ρ c main_arg3 (by decide)).trans ((keepW5 m ρ c main_arg3 (by decide)).trans ((W4_of_ne m ρ c main_arg3 (by decide)).trans ((keepW3 m ρ c main_arg3 (by decide)).trans ((keepW2 m ρ c main_arg3 (by decide)).trans (keepW1 m ρ c main_arg3 (by decide))))))).trans rfl
theorem arg4_at8 (c : Dev nD) : W8 m ρ c (Proc.devRef .tc main_arg4) = m ((c : Thread nD τ).loc main_arg4) :=
  ((W8_of_ne m ρ c main_arg4 (by decide)).trans ((keepW7 m ρ c main_arg4 (by decide)).trans ((W6_of_ne m ρ c main_arg4 (by decide)).trans ((keepW5 m ρ c main_arg4 (by decide)).trans ((W4_of_ne m ρ c main_arg4 (by decide)).trans ((keepW3 m ρ c main_arg4 (by decide)).trans ((keepW2 m ρ c main_arg4 (by decide)).trans (keepW1 m ρ c main_arg4 (by decide))))))))).trans rfl
theorem arg5_at11 (c : Dev nD) : W11 m ρ c (Proc.devRef .tc main_arg5) = m ((c : Thread nD τ).loc main_arg5) :=
  ((W11_of_ne m ρ c main_arg5 (by decide)).trans ((keepW10 m ρ c main_arg5 (by decide)).trans ((W9_of_ne m ρ c main_arg5 (by decide)).trans ((W8_of_ne m ρ c main_arg5 (by decide)).trans ((keepW7 m ρ c main_arg5 (by decide)).trans ((W6_of_ne m ρ c main_arg5 (by decide)).trans ((keepW5 m ρ c main_arg5 (by decide)).trans ((W4_of_ne m ρ c main_arg5 (by decide)).trans ((keepW3 m ρ c main_arg5 (by decide)).trans ((keepW2 m ρ c main_arg5 (by decide)).trans (keepW1 m ρ c main_arg5 (by decide)))))))))))).trans rfl
theorem arg6_at13 (c : Dev nD) : W13 m ρ c (Proc.devRef .tc main_arg6) = m ((c : Thread nD τ).loc main_arg6) :=
  ((W13_of_ne m ρ c main_arg6 (by decide)).trans ((keepW12 m ρ c main_arg6 (by decide)).trans ((W11_of_ne m ρ c main_arg6 (by decide)).trans ((keepW10 m ρ c main_arg6 (by decide)).trans ((W9_of_ne m ρ c main_arg6 (by decide)).trans ((W8_of_ne m ρ c main_arg6 (by decide)).trans ((keepW7 m ρ c main_arg6 (by decide)).trans ((W6_of_ne m ρ c main_arg6 (by decide)).trans ((keepW5 m ρ c main_arg6 (by decide)).trans ((W4_of_ne m ρ c main_arg6 (by decide)).trans ((keepW3 m ρ c main_arg6 (by decide)).trans ((keepW2 m ρ c main_arg6 (by decide)).trans (keepW1 m ρ c main_arg6 (by decide)))))))))))))).trans rfl
theorem arg7_at16 (c : Dev nD) : W16 m ρ c (Proc.devRef .tc main_arg7) = m ((c : Thread nD τ).loc main_arg7) :=
  ((W16_of_ne m ρ c main_arg7 (by decide)).trans ((keepW15 m ρ c main_arg7 (by decide)).trans ((W14_of_ne m ρ c main_arg7 (by decide)).trans ((W13_of_ne m ρ c main_arg7 (by decide)).trans ((keepW12 m ρ c main_arg7 (by decide)).trans ((W11_of_ne m ρ c main_arg7 (by decide)).trans ((keepW10 m ρ c main_arg7 (by decide)).trans ((W9_of_ne m ρ c main_arg7 (by decide)).trans ((W8_of_ne m ρ c main_arg7 (by decide)).trans ((keepW7 m ρ c main_arg7 (by decide)).trans ((W6_of_ne m ρ c main_arg7 (by decide)).trans ((keepW5 m ρ c main_arg7 (by decide)).trans ((W4_of_ne m ρ c main_arg7 (by decide)).trans ((keepW3 m ρ c main_arg7 (by decide)).trans ((keepW2 m ρ c main_arg7 (by decide)).trans (keepW1 m ρ c main_arg7 (by decide))))))))))))))))).trans rfl

end Cert.KernelIdeal.Hand

end
-- ==== Proof.Prep.lean ====
/-
  The values the three layers share, as the kernel program's host operations leave them before its first region: the
  source and target node of every edge (the edge list's two rows, the self loops appended), the number of edges into
  each node, its reciprocal square root where positive, the per-edge weight and the node count. The operations are read
  one stretch at a time, each stretch over what the one before left, so that every comparison is between small terms.
-/
import proofs.«178718_j29798483100071_1_alg».proof.Proof.Gen.KernelIdeal.Frame
import proofs.«178718_j29798483100071_1_alg».proof.Proof.Walk
import proofs.«178718_j29798483100071_1_alg».proof.Proof.Layer
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

theorem src1 (c : Dev nD) : W1 m ρ c (Proc.devRef .tc main_v3) = Cert.Layer.srcOf (m ((c : Thread nD τ).loc main_arg1)) := by
  show StableHlo.after hostOps0 (W0 m ρ c) (Proc.devRef .tc main_v3) = _
  after_results_simp
  rfl

theorem dst1 (c : Dev nD) : W1 m ρ c (Proc.devRef .tc main_v6) = Cert.Layer.dstOf (m ((c : Thread nD τ).loc main_arg1)) := by
  show StableHlo.after hostOps0 (W0 m ρ c) (Proc.devRef .tc main_v6) = _
  after_results_simp
  rfl

theorem deg1 (c : Dev nD) : W1 m ρ c (Proc.devRef .tc main_v10) = Cert.Layer.degOf (m ((c : Thread nD τ).loc main_arg1)) := by
  show StableHlo.after hostOps0 (W0 m ρ c) (Proc.devRef .tc main_v10) = _
  after_results_simp
  rfl

/-- Where the number of incoming edges is positive. -/
theorem pos1 (c : Dev nD) : W1 m ρ c (Proc.devRef .tc main_v12)
    = cmpf (F := Ideal) .ogt (Cert.Layer.degOf (m ((c : Thread nD τ).loc main_arg1)))
        (broadcastInDim Cert.ReferenceIdeal.S100000 ![] Cert.ReferenceIdeal.Gen.bcast_S_S100000 (constant Cert.ReferenceIdeal.S_ .f32 0x00000000#32)) := by
  show StableHlo.after hostOps0 (W0 m ρ c) (Proc.devRef .tc main_v12) = _
  after_results_simp
  rfl

/-- One over the square root of the number of incoming edges. -/
theorem inv1 (c : Dev nD) : W1 m ρ c (Proc.devRef .tc main_v15)
    = Host.divf (F := Ideal) (broadcastInDim Cert.ReferenceIdeal.S100000 ![] Cert.ReferenceIdeal.Gen.bcast_S_S100000 (constant Cert.ReferenceIdeal.S_ .f32 0x3F800000#32))
        (Host.sqrt (Cert.Layer.degOf (m ((c : Thread nD τ).loc main_arg1)))) := by
  show StableHlo.after hostOps0 (W0 m ρ c) (Proc.devRef .tc main_v15) = _
  after_results_simp
  rfl

theorem zero1 (c : Dev nD) : W1 m ρ c (Proc.devRef .tc main_cst_3) = constant (F := Ideal) Cert.ReferenceIdeal.S_ .f32 0x00000000#32 := by
  show StableHlo.after hostOps0 (W0 m ρ c) (Proc.devRef .tc main_cst_3) = _
  after_results_simp

/-! ## After the second stretch: the reciprocal square roots, zero where the count is not positive -/

theorem dinv2 (c : Dev nD) : W2 m ρ c (Proc.devRef .tc main_v16) = Cert.Layer.dinvOf (m ((c : Thread nD τ).loc main_arg1)) := by
  have h12 := pos1 m ρ c
  have h15 := inv1 m ρ c
  have h0 := zero1 m ρ c
  show StableHlo.after hostOps0_1 (W1 m ρ c) (Proc.devRef .tc main_v16) = _
  generalize W1 m ρ c = V1 at h12 h15 h0 ⊢
  after_results_simp
  simp only [cast_eq]
  rw [h12, h15, h0]
  rfl

theorem src2 (c : Dev nD) : W2 m ρ c (Proc.devRef .tc main_v3) = Cert.Layer.srcOf (m ((c : Thread nD τ).loc main_arg1)) :=
  (keepW2 m ρ c main_v3 (by decide)).trans (src1 m ρ c)
theorem dst2 (c : Dev nD) : W2 m ρ c (Proc.devRef .tc main_v6) = Cert.Layer.dstOf (m ((c : Thread nD τ).loc main_arg1)) :=
  (keepW2 m ρ c main_v6 (by decide)).trans (dst1 m ρ c)
theorem deg2 (c : Dev nD) : W2 m ρ c (Proc.devRef .tc main_v10) = Cert.Layer.degOf (m ((c : Thread nD τ).loc main_arg1)) :=
  (keepW2 m ρ c main_v10 (by decide)).trans (deg1 m ρ c)

/-! ## Before the first region -/

theorem src_eq (c : Dev nD) : W3 m ρ c (Proc.devRef .tc main_v3) = Cert.Layer.srcOf (m ((c : Thread nD τ).loc main_arg1)) :=
  (keepW3 m ρ c main_v3 (by decide)).trans (src2 m ρ c)
theorem dst_eq (c : Dev nD) : W3 m ρ c (Proc.devRef .tc main_v6) = Cert.Layer.dstOf (m ((c : Thread nD τ).loc main_arg1)) :=
  (keepW3 m ρ c main_v6 (by decide)).trans (dst2 m ρ c)

/-- The per-edge weight: the reciprocal square root at the edge's source times the one at its target. -/
theorem nrm_eq (c : Dev nD) : W3 m ρ c (Proc.devRef .tc main_v31) = Cert.Layer.nrmOf (m ((c : Thread nD τ).loc main_arg1)) := by
  have h16 := dinv2 m ρ c
  have h3 := src2 m ρ c
  have h6 := dst2 m ρ c
  show StableHlo.after hostOps0_2 (W2 m ρ c) (Proc.devRef .tc main_v31) = _
  generalize W2 m ρ c = V2 at h16 h3 h6 ⊢
  after_results_simp
  rw [h16, h3, h6]
  rfl

/-- The node count: the number of incoming edges, at least one. -/
theorem cnt_eq (c : Dev nD) : W3 m ρ c (Proc.devRef .tc main_v33) = Cert.Layer.cntOf (m ((c : Thread nD τ).loc main_arg1)) := by
  have h10 := deg2 m ρ c
  show StableHlo.after hostOps0_2 (W2 m ρ c) (Proc.devRef .tc main_v33) = _
  generalize W2 m ρ c = V2 at h10 ⊢
  after_results_simp
  rw [h10]
  rfl

end Cert.KernelIdeal.Hand

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay.lean ====
/-
  The arithmetic of the nine kernel bodies, each read at one entry of its output block, at the ideal values.
  A product body: entry (p, q) is the sum over k < 128 of left(p, k) * right(k, q) (the operands' change of float
  format is the identity on extended reals, the accumulator starts at zero).
  A scaling body: entry (p, q) is block(p, q) * column(p, 0).
  An epilogue body: entry (p, q) is block(p, q) / column(p, 0) + row(0, q), for the first two layers clamped below at zero.
-/
import proofs.«178718_j29798483100071_1_alg».proof.Proof.Gen.KernelIdeal.Skeleton
import proofs.«178718_j29798483100071_1_alg».proof.Proof.LibMatmulSum
import proofs.«178718_j29798483100071_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- The 2000 x 128 by 128 x 128 product's dimension numbers are those of a plain matrix product. -/
theorem plain128 : Cert.LibMatmulSum.Plain dot_S2000x128_S128x128_S2000x128_1_0_0_1_n_n where
  rank := rfl
  size := rfl
  l0 := fun i q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  l1 := fun i q => dot_S2000x128_S128x128_S2000x128_1_0_0_1_n_n.lhsIdx_val_of_single rfl i q
  r0 := fun i q => dot_S2000x128_S128x128_S2000x128_1_0_0_1_n_n.rhsIdx_val_of_single rfl i q
  r1 := fun i q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The 2000 x 128 by 128 x 64 product's dimension numbers are those of a plain matrix product. -/
theorem plain64 : Cert.LibMatmulSum.Plain dot_S2000x128_S128x64_S2000x64_1_0_0_1_n_n where
  rank := rfl
  size := rfl
  l0 := fun i q => by
    unfold DotDims.lhsIdx
    rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
    rfl
  l1 := fun i q => dot_S2000x128_S128x64_S2000x64_1_0_0_1_n_n.lhsIdx_val_of_single rfl i q
  r0 := fun i q => dot_S2000x128_S128x64_S2000x64_1_0_0_1_n_n.rhsIdx_val_of_single rfl i q
  r1 := fun i q => by
    unfold DotDims.rhsIdx
    rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
    rfl

/-! ## The product bodies -/

theorem pay0 (x0 : FVec Ideal S2000x128 .f32) (x1 : FVec Ideal S128x128 .f32) (p : Fin 2000) (q : Fin 128) :
    k0_pay1 (F := Ideal) x0 x1 (ix2 p q) = ∑ k : Fin 128, x0 (ix2 p k) * x1 (ix2 k q) := by
  unfold k0_pay1
  exact Cert.LibMatmulSum.matmul_zero_at plain128 none _ _ p q

theorem pay3 (x0 : FVec Ideal S2000x128 .f32) (x1 : FVec Ideal S128x128 .f32) (p : Fin 2000) (q : Fin 128) :
    k3_pay1 (F := Ideal) x0 x1 (ix2 p q) = ∑ k : Fin 128, x0 (ix2 p k) * x1 (ix2 k q) := by
  unfold k3_pay1
  simp only [shapeCast_self]
  exact Cert.LibMatmulSum.matmul_zero_at plain128 none _ _ p q

theorem pay6 (x0 : FVec Ideal S2000x128 .f32) (x1 : FVec Ideal S128x64 .f32) (p : Fin 2000) (q : Fin 64) :
    k6_pay1 (F := Ideal) x0 x1 (ix2 p q) = ∑ k : Fin 128, x0 (ix2 p k) * x1 (ix2 k q) := by
  unfold k6_pay1
  simp only [shapeCast_self]
  exact Cert.LibMatmulSum.matmul_zero_at plain64 none _ _ p q

/-! ## The scaling bodies -/

theorem pay1 (x0 : FVec Ideal S10000x128 .f32) (x1 : FVec Ideal S10000x1 .f32) (p : Fin 10000) (q : Fin 128) :
    k1_pay1 (F := Ideal) x0 x1 (ix2 p q) = x0 (ix2 p q) * x1 (ix2 p (0 : Fin 1)) := by
  unfold k1_pay1
  simp only [mulf_apply, shapeCast_self]
  rw [broadcastTo_a1_ab_apply]

theorem pay4 (x0 : FVec Ideal S10000x128 .f32) (x1 : FVec Ideal S10000x1 .f32) (p : Fin 10000) (q : Fin 128) :
    k4_pay1 (F := Ideal) x0 x1 (ix2 p q) = x0 (ix2 p q) * x1 (ix2 p (0 : Fin 1)) := by
  unfold k4_pay1
  simp only [mulf_apply, shapeCast_self]
  rw [broadcastTo_a1_ab_apply]

theorem pay7 (x0 : FVec Ideal S10000x64 .f32) (x1 : FVec Ideal S10000x1 .f32) (p : Fin 10000) (q : Fin 64) :
    k7_pay1 (F := Ideal) x0 x1 (ix2 p q) = x0 (ix2 p q) * x1 (ix2 p (0 : Fin 1)) := by
  unfold k7_pay1
  simp only [mulf_apply, shapeCast_self]
  rw [broadcastTo_a1_ab_apply]

/-! ## The epilogue bodies -/

theorem pay2 (x0 : FVec Ideal S2000x128 .f32) (x1 : FVec Ideal S2000x1 .f32) (x2 : FVec Ideal S1x128 .f32) (p : Fin 2000) (q : Fin 128) :
    k2_pay1 (F := Ideal) x0 x1 x2 (ix2 p q)
      = max (Ideal.div (x0 (ix2 p q)) (x1 (ix2 p (0 : Fin 1))) + x2 (ix2 (0 : Fin 1) q)) (Ideal.ofBits .f32 0x00000000#32) := by
  unfold k2_pay1
  simp only [maximumf_apply, addf_apply, divf_apply, shapeCast_self, broadcast_apply]
  rw [broadcastTo_a1_ab_apply, broadcastTo_1b_ab_apply]
  rfl

theorem pay5 (x0 : FVec Ideal S2000x128 .f32) (x1 : FVec Ideal S2000x1 .f32) (x2 : FVec Ideal S1x128 .f32) (p : Fin 2000) (q : Fin 128) :
    k5_pay1 (F := Ideal) x0 x1 x2 (ix2 p q)
      = max (Ideal.div (x0 (ix2 p q)) (x1 (ix2 p (0 : Fin 1))) + x2 (ix2 (0 : Fin 1) q)) (Ideal.ofBits .f32 0x00000000#32) := by
  unfold k5_pay1
  simp only [maximumf_apply, addf_apply, divf_apply, shapeCast_self, broadcast_apply]
  rw [broadcastTo_a1_ab_apply, broadcastTo_1b_ab_apply]
  rfl

theorem pay8 (x0 : FVec Ideal S2000x64 .f32) (x1 : FVec Ideal S2000x1 .f32) (x2 : FVec Ideal S1x64 .f32) (p : Fin 2000) (q : Fin 64) :
    k8_pay1 (F := Ideal) x0 x1 x2 (ix2 p q)
      = Ideal.div (x0 (ix2 p q)) (x1 (ix2 p (0 : Fin 1))) + x2 (ix2 (0 : Fin 1) q) := by
  unfold k8_pay1
  simp only [addf_apply, divf_apply, shapeCast_self]
  rw [broadcastTo_a1_ab_apply, broadcastTo_1b_ab_apply]

end Cert.KernelIdeal.Hand

end
-- ==== Proof.Region0.lean ====
/-
  Product region 0: the grid's 50 points each take rows 2000 t … 2000 t + 1999 of the left array and the whole right
  array, and write back those rows of the product. Every row is in exactly the block of point (row / 2000), so the
  result array ends holding the whole product of the two arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The block index maps over the grid: the left and result blocks move down with the point, the right block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row of the left block at point t is row 2000 t + p of the left array. -/
theorem left0 (c : Dev nD) (t : Fin cfg0.N) (p : Fin 2000) (k : Fin 128) (hrow : t.val * 2000 + p.val < 100000) :
    (iblk0 V c 0 t : S2000x128.Idx → EReal) (ix2 p k) = (V c main_arg0 : S100000x128.Idx → EReal) (ix2 (⟨t.val * 2000 + p.val, hrow⟩ : Fin 100000) k) := by
  obtain ⟨e00, e01, -, -, -, -⟩ := idx0 t
  show (V c main_arg0 : S100000x128.Idx → EReal) (((cfg0.win 0).blk t).view.emb (ix2 p k)) = _
  refine congrArg (V c main_arg0 : S100000x128.Idx → EReal) ?_
  funext a
  apply Fin.ext
  match a with
  | ⟨0, _⟩ => show win0_0.index t (0 : Fin 2) * 2000 + 1 * p.val = t.val * 2000 + p.val; rw [e00]; omega
  | ⟨1, _⟩ => show win0_0.index t (1 : Fin 2) * 128 + 1 * k.val = k.val; rw [e01]; omega

/-- The right block at every point is the whole right array. -/
theorem right0 (c : Dev nD) (t : Fin cfg0.N) (k : Fin 128) (q : Fin 128) :
    (iblk0 V c 1 t : S128x128.Idx → EReal) (ix2 k q) = (V c main_arg2 : S128x128.Idx → EReal) (ix2 k q) := by
  obtain ⟨-, -, e10, e11, -, -⟩ := idx0 t
  show (V c main_arg2 : S128x128.Idx → EReal) (((cfg0.win 1).blk t).view.emb (ix2 k q)) = _
  refine congrArg (V c main_arg2 : S128x128.Idx → EReal) ?_
  funext a
  apply Fin.ext
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- What point t writes back is block t of the product of the two arrays. -/
theorem flushed0 (c : Dev nD) (t : Fin cfg0.N) :
    (dat0 V c).flushed 2 t = ((cfg0.win 2).blk t).view.read (Elt Ideal) (Cert.Layer.mat128 (V c main_arg0) (V c main_arg2)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  obtain ⟨-, -, -, -, e20, e21⟩ := idx0 t
  have hN : t.val < 50 := t.isLt
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg0.win 2).blk t).view.emb (ix2 p q) = (ix2 (⟨t.val * 2000 + p.val, hrow⟩ : Fin 100000) q : S100000x128.Idx) := by
    funext a
    apply Fin.ext
    match a with
    | ⟨0, _⟩ => show win0_2.index t (0 : Fin 2) * 2000 + 1 * p.val = t.val * 2000 + p.val; rw [e20]; omega
    | ⟨1, _⟩ => show win0_2.index t (1 : Fin 2) * 128 + 1 * q.val = q.val; rw [e21]; omega
  show k0_pay1 (F := Ideal) (iblk0 V c 0 t) (iblk0 V c 1 t) (ix2 p q) = Cert.Layer.mat128 (V c main_arg0) (V c main_arg2) (((cfg0.win 2).blk t).view.emb (ix2 p q))
  rw [hemb]
  refine (pay0 (iblk0 V c 0 t) (iblk0 V c 1 t) p q).trans ?_
  refine Eq.trans ?_ (Cert.Layer.mat128_at (V c main_arg0) (V c main_arg2) ⟨_, hrow⟩ q).symm
  refine Finset.sum_congr rfl fun k _ => ?_
  rw [left0 V c t p k hrow, right0 V c t k q]

/-- Every entry of the result array is in the block of the point its row falls in. -/
theorem cover0 (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have ht : (i 0).val / 2000 < 50 := by omega
  refine ⟨⟨(i 0).val / 2000, ht⟩, flush0_2 _, ?_⟩
  obtain ⟨-, -, -, -, e20, e21⟩ := idx0 ⟨(i 0).val / 2000, ht⟩
  show i ∈ ((View.whole main_v34).slice (win0_2.rect ⟨(i 0).val / 2000, ht⟩)).set
  rw [View.set_slice_whole, Rect.mem_set_unit]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e21]; omega

/-- The result array after the region: the product of the two arrays as the region found them. -/
theorem final0 (c : Dev nD) : (dat0 V c).arrAt 2 cfg0.N = Cert.Layer.mat128 (V c main_arg0) (V c main_arg2) :=
  (dat0 V c).arrAt_eq_of_cover 2 _ (fun t _ => flushed0 V c t) (cover0)

end Cert.KernelIdeal.Hand

end
-- ==== Proof.Region1.lean ====
/-
  Scaling region 1: the grid's 170 points each take rows 10000 t … 10000 t + 9999 of the gathered rows and of the
  weight column, and write back those rows with every entry multiplied by its row's weight. Every row is in exactly
  the block of point (row / 10000), so the result array ends holding the weight column repeated along the columns times
  the gathered rows, entry by entry (the two factors in the host's order: multiplication of extended reals commutes).
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The block index maps over the grid: all three blocks move down with the point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A row of the first block at point t is row 10000 t + p of the gathered rows. -/
theorem rows1 (c : Dev nD) (t : Fin cfg1.N) (p : Fin 10000) (q : Fin 128) (hrow : t.val * 10000 + p.val < 1700000) :
    (iblk1 V c 0 t : S10000x128.Idx → EReal) (ix2 p q) = (V c main_v41 : S1700000x128.Idx → EReal) (ix2 (⟨t.val * 10000 + p.val, hrow⟩ : Fin 1700000) q) := by
  obtain ⟨e00, e01, -, -, -, -⟩ := idx1 t
  show (V c main_v41 : S1700000x128.Idx → EReal) (((cfg1.win 0).blk t).view.emb (ix2 p q)) = _
  refine congrArg (V c main_v41 : S1700000x128.Idx → EReal) ?_
  funext a
  apply Fin.ext
  match a with
  | ⟨0, _⟩ => show win1_0.index t (0 : Fin 2) * 10000 + 1 * p.val = t.val * 10000 + p.val; rw [e00]; omega
  | ⟨1, _⟩ => show win1_0.index t (1 : Fin 2) * 128 + 1 * q.val = q.val; rw [e01]; omega

/-- An entry of the column block at point t is entry 10000 t + p of the weight column. -/
theorem col1 (c : Dev nD) (t : Fin cfg1.N) (p : Fin 10000) (hrow : t.val * 10000 + p.val < 1700000) :
    (iblk1 V c 1 t : S10000x1.Idx → EReal) (ix2 p (0 : Fin 1)) = (V c main_v42 : S1700000x1.Idx → EReal) (ix2 (⟨t.val * 10000 + p.val, hrow⟩ : Fin 1700000) (0 : Fin 1)) := by
  obtain ⟨-, -, e10, e11, -, -⟩ := idx1 t
  show (V c main_v42 : S1700000x1.Idx → EReal) (((cfg1.win 1).blk t).view.emb (ix2 p (0 : Fin 1))) = _
  refine congrArg (V c main_v42 : S1700000x1.Idx → EReal) ?_
  funext a
  apply Fin.ext
  match a with
  | ⟨0, _⟩ => show win1_1.index t (0 : Fin 2) * 10000 + 1 * p.val = t.val * 10000 + p.val; rw [e10]; omega
  | ⟨1, _⟩ => show win1_1.index t (1 : Fin 2) * 1 + 1 * (0 : Fin 1).val = (0 : Fin 1).val; rw [e11]; rfl

/-- What point t writes back is block t of the scaled rows. -/
theorem flushed1 (c : Dev nD) (t : Fin cfg1.N) :
    (dat1 V c).flushed 2 t = ((cfg1.win 2).blk t).view.read (Elt Ideal) (Cert.Layer.scale128 (V c main_v41) (V c main_v42)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S10000x1) hz1]
  obtain ⟨-, -, -, -, e20, e21⟩ := idx1 t
  have hN : t.val < 170 := t.isLt
  funext j
  obtain ⟨p, q, rfl⟩ : ∃ (p : Fin 10000) (q : Fin 128), j = ix2 p q := ⟨j 0, j 1, eq_ix2 j⟩
  have hrow : t.val * 10000 + p.val < 1700000 := by have := p.isLt; omega
  have hemb : ((cfg1.win 2).blk t).view.emb (ix2 p q) = (ix2 (⟨t.val * 10000 + p.val, hrow⟩ : Fin 1700000) q : S1700000x128.Idx) := by
    funext a
    apply Fin.ext
    match a with
    | ⟨0, _⟩ => show win1_2.index t (0 : Fin 2) * 10000 + 1 * p.val = t.val * 10000 + p.val; rw [e20]; omega
    | ⟨1, _⟩ => show win1_2.index t (1 : Fin 2) * 128 + 1 * q.val = q.val; rw [e21]; omega
  show k1_pay1 (F := Ideal) (iblk1 V c 0 t) (iblk1 V c 1 t) (ix2 p q) = Cert.Layer.scale128 (V c main_v41) (V c main_v42) (((cfg1.win 2).blk t).view.emb (ix2 p q))
  rw [hemb]
  refine (pay1 (iblk1 V c 0 t) (iblk1 V c 1 t) p q).trans ?_
  refine Eq.trans ?_ (Cert.Layer.scale128_at (V c main_v41) (V c main_v42) ⟨_, hrow⟩ q).symm
  rw [rows1 V c t p q hrow, col1 V c t p hrow]
  exact mul_comm _ _

/-- Every entry of the result array is in the block of the point its row falls in. -/
theorem cover1 (i : S1700000x128.Idx) : ∃ t : Fin cfg1.N, (cfg1.win 2).flush t = true ∧ i ∈ ((cfg1.win 2).blk t).view.set := by
  have h0 : (i 0).val < 1700000 := (i 0).isLt
  have h1 : (i 1).val < 128 := (i 1).isLt
  have ht : (i 0).val / 10000 < 170 := by omega
  refine ⟨⟨(i 0).val / 10000, ht⟩, flush1_2 _, ?_⟩
  obtain ⟨-, -, -, -, e20, e21⟩ := idx1 ⟨(i 0).val / 10000, ht⟩
  show i ∈ ((View.whole main_v43).slice (win1_2.rect ⟨(i 0).val / 10000, ht⟩)).set
  rw [View.set_slice_whole, Rect.mem_set_unit]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, ht⟩ (1 : Fin 2) * 128 ≤ (i 1).val ∧ (i 1).val < win1_2.index ⟨(i 0).val / 10000, ht⟩ (1 : Fin 2) * 128 + 128
    rw [e21]; omega

/-- The result array after the region: the gathered rows scaled by the weight column, as the region found them. -/
theorem final1 (c : Dev nD) : (dat1 V c).arrAt 2 cfg1.N = Cert.Layer.scale128 (V c main_v41) (V c main_v42) :=
  (dat1 V c).arrAt_eq_of_cover 2 _ (fun t _ => flushed1 V c t) (cover1)

end Cert.KernelIdeal.Hand

end
-- ==== Proof.Region2.lean ====
/-
  Epilogue region 2: the grid's 50 points each take rows 2000 t … 2000 t + 1999 of the summed messages and of the count
  column, and the one bias row, and write back those rows with every entry divided by its row's count and the bias of
  its column added, then clamped below at zero. Every row is in exactly the block of point (row / 2000), so the result array ends holding
  that function of the three arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The block index maps over the grid: the message, count and result blocks move down with the point, the bias row stays. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A row of the first block at point t is row 2000 t + p of the summed messages. -/
theorem rows2 (c : Dev nD) (t : Fin cfg2.N) (p : Fin 2000) (q : Fin 128) (hrow : t.val * 2000 + p.val < 100000) :
    (iblk2 V c 0 t : S2000x128.Idx → EReal) (ix2 p q) = (V c main_v46 : S100000x128.Idx → EReal) (ix2 (⟨t.val * 2000 + p.val, hrow⟩ : Fin 100000) q) := by
  obtain ⟨e00, e01, -, -, -, -, -, -⟩ := idx2 t
  show (V c main_v46 : S100000x128.Idx → EReal) (((cfg2.win 0).blk t).view.emb (ix2 p q)) = _
  refine congrArg (V c main_v46 : S100000x128.Idx → EReal) ?_
  funext a
  apply Fin.ext
  match a with
  | ⟨0, _⟩ => show win2_0.index t (0 : Fin 2) * 2000 + 1 * p.val = t.val * 2000 + p.val; rw [e00]; omega
  | ⟨1, _⟩ => show win2_0.index t (1 : Fin 2) * 128 + 1 * q.val = q.val; rw [e01]; omega

/-- An entry of the column block at point t is entry 2000 t + p of the count column. -/
theorem col2 (c : Dev nD) (t : Fin cfg2.N) (p : Fin 2000) (hrow : t.val * 2000 + p.val < 100000) :
    (iblk2 V c 1 t : S2000x1.Idx → EReal) (ix2 p (0 : Fin 1)) = (V c main_v47 : S100000x1.Idx → EReal) (ix2 (⟨t.val * 2000 + p.val, hrow⟩ : Fin 100000) (0 : Fin 1)) := by
  obtain ⟨-, -, e10, e11, -, -, -, -⟩ := idx2 t
  show (V c main_v47 : S100000x1.Idx → EReal) (((cfg2.win 1).blk t).view.emb (ix2 p (0 : Fin 1))) = _
  refine congrArg (V c main_v47 : S100000x1.Idx → EReal) ?_
  funext a
  apply Fin.ext
  match a with
  | ⟨0, _⟩ => show win2_1.index t (0 : Fin 2) * 2000 + 1 * p.val = t.val * 2000 + p.val; rw [e10]; omega
  | ⟨1, _⟩ => show win2_1.index t (1 : Fin 2) * 1 + 1 * (0 : Fin 1).val = (0 : Fin 1).val; rw [e11]; rfl

/-- The bias block at every point is the whole bias row. -/
theorem bias2 (c : Dev nD) (t : Fin cfg2.N) (q : Fin 128) :
    (iblk2 V c 2 t : S1x128.Idx → EReal) (ix2 (0 : Fin 1) q) = (V c main_v48 : S1x128.Idx → EReal) (ix2 (0 : Fin 1) q) := by
  obtain ⟨-, -, -, -, e20, e21, -, -⟩ := idx2 t
  show (V c main_v48 : S1x128.Idx → EReal) (((cfg2.win 2).blk t).view.emb (ix2 (0 : Fin 1) q)) = _
  refine congrArg (V c main_v48 : S1x128.Idx → EReal) ?_
  funext a
  apply Fin.ext
  match a with
  | ⟨0, _⟩ => show win2_2.index t (0 : Fin 2) * 1 + 1 * (0 : Fin 1).val = (0 : Fin 1).val; rw [e20]; rfl
  | ⟨1, _⟩ => show win2_2.index t (1 : Fin 2) * 128 + 1 * q.val = q.val; rw [e21]; omega

/-- What point t writes back is block t of the epilogue of the three arrays. -/
theorem flushed2 (c : Dev nD) (t : Fin cfg2.N) :
    (dat2 V c).flushed 3 t = ((cfg2.win 3).blk t).view.read (Elt Ideal) (Cert.Layer.post128 (V c main_v46) (V c main_v47) (V c main_v48)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S2000x1) hz2, View.ld_unit_zero (S := S1x128) hz2]
  obtain ⟨-, -, -, -, -, -, e30, e31⟩ := idx2 t
  have hN : t.val < 50 := t.isLt
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg2.win 3).blk t).view.emb (ix2 p q) = (ix2 (⟨t.val * 2000 + p.val, hrow⟩ : Fin 100000) q : S100000x128.Idx) := by
    funext a
    apply Fin.ext
    match a with
    | ⟨0, _⟩ => show win2_3.index t (0 : Fin 2) * 2000 + 1 * p.val = t.val * 2000 + p.val; rw [e30]; omega
    | ⟨1, _⟩ => show win2_3.index t (1 : Fin 2) * 128 + 1 * q.val = q.val; rw [e31]; omega
  show k2_pay1 (F := Ideal) (iblk2 V c 0 t) (iblk2 V c 1 t) (iblk2 V c 2 t) (ix2 p q) = Cert.Layer.post128 (V c main_v46) (V c main_v47) (V c main_v48) (((cfg2.win 3).blk t).view.emb (ix2 p q))
  rw [hemb]
  refine (pay2 (iblk2 V c 0 t) (iblk2 V c 1 t) (iblk2 V c 2 t) p q).trans ?_
  refine Eq.trans ?_ (Cert.Layer.post128_at (V c main_v46) (V c main_v47) (V c main_v48) ⟨_, hrow⟩ q).symm
  rw [rows2 V c t p q hrow, col2 V c t p hrow, bias2 V c t q]

/-- Every entry of the result array is in the block of the point its row falls in. -/
theorem cover2 (i : S100000x128.Idx) : ∃ t : Fin cfg2.N, (cfg2.win 3).flush t = true ∧ i ∈ ((cfg2.win 3).blk t).view.set := by
  have h0 : (i 0).val < 100000 := (i 0).isLt
  have h1 : (i 1).val < 128 := (i 1).isLt
  have ht : (i 0).val / 2000 < 50 := by omega
  refine ⟨⟨(i 0).val / 2000, ht⟩, flush2_3 _, ?_⟩
  obtain ⟨-, -, -, -, -, -, e30, e31⟩ := idx2 ⟨(i 0).val / 2000, ht⟩
  show i ∈ ((View.whole main_v49).slice (win2_3.rect ⟨(i 0).val / 2000, ht⟩)).set
  rw [View.set_slice_whole, Rect.mem_set_unit]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e31]; omega

/-- The result array after the region: the epilogue of the three arrays as the region found them. -/
theorem final2 (c : Dev nD) : (dat2 V c).arrAt 3 cfg2.N = Cert.Layer.post128 (V c main_v46) (V c main_v47) (V c main_v48) :=
  (dat2 V c).arrAt_eq_of_cover 3 _ (fun t _ => flushed2 V c t) (cover2)

end Cert.KernelIdeal.Hand

end
-- ==== Proof.Region3.lean ====
/-
  Product region 3: the grid's 50 points each take rows 2000 t … 2000 t + 1999 of the left array and the whole right
  array, and write back those rows of the product. Every row is in exactly the block of point (row / 2000), so the
  result array ends holding the whole product of the two arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The block index maps over the grid: the left and result blocks move down with the point, the right block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A row of the left block at point t is row 2000 t + p of the left array. -/
theorem left3 (c : Dev nD) (t : Fin cfg3.N) (p : Fin 2000) (k : Fin 128) (hrow : t.val * 2000 + p.val < 100000) :
    (iblk3 V c 0 t : S2000x128.Idx → EReal) (ix2 p k) = (V c main_v49 : S100000x128.Idx → EReal) (ix2 (⟨t.val * 2000 + p.val, hrow⟩ : Fin 100000) k) := by
  obtain ⟨e00, e01, -, -, -, -⟩ := idx3 t
  show (V c main_v49 : S100000x128.Idx → EReal) (((cfg3.win 0).blk t).view.emb (ix2 p k)) = _
  refine congrArg (V c main_v49 : S100000x128.Idx → EReal) ?_
  funext a
  apply Fin.ext
  match a with
  | ⟨0, _⟩ => show win3_0.index t (0 : Fin 2) * 2000 + 1 * p.val = t.val * 2000 + p.val; rw [e00]; omega
  | ⟨1, _⟩ => show win3_0.index t (1 : Fin 2) * 128 + 1 * k.val = k.val; rw [e01]; omega

/-- The right block at every point is the whole right array. -/
theorem right3 (c : Dev nD) (t : Fin cfg3.N) (k : Fin 128) (q : Fin 128) :
    (iblk3 V c 1 t : S128x128.Idx → EReal) (ix2 k q) = (V c main_arg4 : S128x128.Idx → EReal) (ix2 k q) := by
  obtain ⟨-, -, e10, e11, -, -⟩ := idx3 t
  show (V c main_arg4 : S128x128.Idx → EReal) (((cfg3.win 1).blk t).view.emb (ix2 k q)) = _
  refine congrArg (V c main_arg4 : S128x128.Idx → EReal) ?_
  funext a
  apply Fin.ext
  match a with
  | ⟨0, _⟩ => show win3_1.index t (0 : Fin 2) * 128 + 1 * k.val = k.val; rw [e10]; omega
  | ⟨1, _⟩ => show win3_1.index t (1 : Fin 2) * 128 + 1 * q.val = q.val; rw [e11]; omega

/-- What point t writes back is block t of the product of the two arrays. -/
theorem flushed3 (c : Dev nD) (t : Fin cfg3.N) :
    (dat3 V c).flushed 2 t = ((cfg3.win 2).blk t).view.read (Elt Ideal) (Cert.Layer.mat128 (V c main_v49) (V c main_arg4)) := by
  show (cfg3.win 2).cut (grid3.coords t) ((dat3 V c).after 2 t) = _
  rw [after3_2]
  unfold out3_2
  rw [View.canon_unit_zero hz3]
  simp only [View.ld_unit_zero (S := S2000x128) hz3, View.ld_unit_zero (S := S128x128) hz3]
  obtain ⟨-, -, -, -, e20, e21⟩ := idx3 t
  have hN : t.val < 50 := t.isLt
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg3.win 2).blk t).view.emb (ix2 p q) = (ix2 (⟨t.val * 2000 + p.val, hrow⟩ : Fin 100000) q : S100000x128.Idx) := by
    funext a
    apply Fin.ext
    match a with
    | ⟨0, _⟩ => show win3_2.index t (0 : Fin 2) * 2000 + 1 * p.val = t.val * 2000 + p.val; rw [e20]; omega
    | ⟨1, _⟩ => show win3_2.index t (1 : Fin 2) * 128 + 1 * q.val = q.val; rw [e21]; omega
  show k3_pay1 (F := Ideal) (iblk3 V c 0 t) (iblk3 V c 1 t) (ix2 p q) = Cert.Layer.mat128 (V c main_v49) (V c main_arg4) (((cfg3.win 2).blk t).view.emb (ix2 p q))
  rw [hemb]
  refine (pay3 (iblk3 V c 0 t) (iblk3 V c 1 t) p q).trans ?_
  refine Eq.trans ?_ (Cert.Layer.mat128_at (V c main_v49) (V c main_arg4) ⟨_, hrow⟩ q).symm
  refine Finset.sum_congr rfl fun k _ => ?_
  rw [left3 V c t p k hrow, right3 V c t k q]

/-- Every entry of the result array is in the block of the point its row falls in. -/
theorem cover3 (i : S100000x128.Idx) : ∃ t : Fin cfg3.N, (cfg3.win 2).flush t = true ∧ i ∈ ((cfg3.win 2).blk t).view.set := by
  have h0 : (i 0).val < 100000 := (i 0).isLt
  have h1 : (i 1).val < 128 := (i 1).isLt
  have ht : (i 0).val / 2000 < 50 := by omega
  refine ⟨⟨(i 0).val / 2000, ht⟩, flush3_2 _, ?_⟩
  obtain ⟨-, -, -, -, e20, e21⟩ := idx3 ⟨(i 0).val / 2000, ht⟩
  show i ∈ ((View.whole main_v50).slice (win3_2.rect ⟨(i 0).val / 2000, ht⟩)).set
  rw [View.set_slice_whole, Rect.mem_set_unit]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e21]; omega

/-- The result array after the region: the product of the two arrays as the region found them. -/
theorem final3 (c : Dev nD) : (dat3 V c).arrAt 2 cfg3.N = Cert.Layer.mat128 (V c main_v49) (V c main_arg4) :=
  (dat3 V c).arrAt_eq_of_cover 2 _ (fun t _ => flushed3 V c t) (cover3)

end Cert.KernelIdeal.Hand

end
-- ==== Proof.Region4.lean ====
/-
  Scaling region 4: the grid's 170 points each take rows 10000 t … 10000 t + 9999 of the gathered rows and of the
  weight column, and write back those rows with every entry multiplied by its row's weight. Every row is in exactly
  the block of point (row / 10000), so the result array ends holding the weight column repeated along the columns times
  the gathered rows, entry by entry (the two factors in the host's order: multiplication of extended reals commutes).
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The block index maps over the grid: all three blocks move down with the point. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- A row of the first block at point t is row 10000 t + p of the gathered rows. -/
theorem rows4 (c : Dev nD) (t : Fin cfg4.N) (p : Fin 10000) (q : Fin 128) (hrow : t.val * 10000 + p.val < 1700000) :
    (iblk4 V c 0 t : S10000x128.Idx → EReal) (ix2 p q) = (V c main_v57 : S1700000x128.Idx → EReal) (ix2 (⟨t.val * 10000 + p.val, hrow⟩ : Fin 1700000) q) := by
  obtain ⟨e00, e01, -, -, -, -⟩ := idx4 t
  show (V c main_v57 : S1700000x128.Idx → EReal) (((cfg4.win 0).blk t).view.emb (ix2 p q)) = _
  refine congrArg (V c main_v57 : S1700000x128.Idx → EReal) ?_
  funext a
  apply Fin.ext
  match a with
  | ⟨0, _⟩ => show win4_0.index t (0 : Fin 2) * 10000 + 1 * p.val = t.val * 10000 + p.val; rw [e00]; omega
  | ⟨1, _⟩ => show win4_0.index t (1 : Fin 2) * 128 + 1 * q.val = q.val; rw [e01]; omega

/-- An entry of the column block at point t is entry 10000 t + p of the weight column. -/
theorem col4 (c : Dev nD) (t : Fin cfg4.N) (p : Fin 10000) (hrow : t.val * 10000 + p.val < 1700000) :
    (iblk4 V c 1 t : S10000x1.Idx → EReal) (ix2 p (0 : Fin 1)) = (V c main_v58 : S1700000x1.Idx → EReal) (ix2 (⟨t.val * 10000 + p.val, hrow⟩ : Fin 1700000) (0 : Fin 1)) := by
  obtain ⟨-, -, e10, e11, -, -⟩ := idx4 t
  show (V c main_v58 : S1700000x1.Idx → EReal) (((cfg4.win 1).blk t).view.emb (ix2 p (0 : Fin 1))) = _
  refine congrArg (V c main_v58 : S1700000x1.Idx → EReal) ?_
  funext a
  apply Fin.ext
  match a with
  | ⟨0, _⟩ => show win4_1.index t (0 : Fin 2) * 10000 + 1 * p.val = t.val * 10000 + p.val; rw [e10]; omega
  | ⟨1, _⟩ => show win4_1.index t (1 : Fin 2) * 1 + 1 * (0 : Fin 1).val = (0 : Fin 1).val; rw [e11]; rfl

/-- What point t writes back is block t of the scaled rows. -/
theorem flushed4 (c : Dev nD) (t : Fin cfg4.N) :
    (dat4 V c).flushed 2 t = ((cfg4.win 2).blk t).view.read (Elt Ideal) (Cert.Layer.scale128 (V c main_v57) (V c main_v58)) := by
  show (cfg4.win 2).cut (grid4.coords t) ((dat4 V c).after 2 t) = _
  rw [after4_2]
  unfold out4_2
  rw [View.canon_unit_zero hz4]
  simp only [View.ld_unit_zero (S := S10000x128) hz4, View.ld_unit_zero (S := S10000x1) hz4]
  obtain ⟨-, -, -, -, e20, e21⟩ := idx4 t
  have hN : t.val < 170 := t.isLt
  funext j
  obtain ⟨p, q, rfl⟩ : ∃ (p : Fin 10000) (q : Fin 128), j = ix2 p q := ⟨j 0, j 1, eq_ix2 j⟩
  have hrow : t.val * 10000 + p.val < 1700000 := by have := p.isLt; omega
  have hemb : ((cfg4.win 2).blk t).view.emb (ix2 p q) = (ix2 (⟨t.val * 10000 + p.val, hrow⟩ : Fin 1700000) q : S1700000x128.Idx) := by
    funext a
    apply Fin.ext
    match a with
    | ⟨0, _⟩ => show win4_2.index t (0 : Fin 2) * 10000 + 1 * p.val = t.val * 10000 + p.val; rw [e20]; omega
    | ⟨1, _⟩ => show win4_2.index t (1 : Fin 2) * 128 + 1 * q.val = q.val; rw [e21]; omega
  show k4_pay1 (F := Ideal) (iblk4 V c 0 t) (iblk4 V c 1 t) (ix2 p q) = Cert.Layer.scale128 (V c main_v57) (V c main_v58) (((cfg4.win 2).blk t).view.emb (ix2 p q))
  rw [hemb]
  refine (pay4 (iblk4 V c 0 t) (iblk4 V c 1 t) p q).trans ?_
  refine Eq.trans ?_ (Cert.Layer.scale128_at (V c main_v57) (V c main_v58) ⟨_, hrow⟩ q).symm
  rw [rows4 V c t p q hrow, col4 V c t p hrow]
  exact mul_comm _ _

/-- Every entry of the result array is in the block of the point its row falls in. -/
theorem cover4 (i : S1700000x128.Idx) : ∃ t : Fin cfg4.N, (cfg4.win 2).flush t = true ∧ i ∈ ((cfg4.win 2).blk t).view.set := by
  have h0 : (i 0).val < 1700000 := (i 0).isLt
  have h1 : (i 1).val < 128 := (i 1).isLt
  have ht : (i 0).val / 10000 < 170 := by omega
  refine ⟨⟨(i 0).val / 10000, ht⟩, flush4_2 _, ?_⟩
  obtain ⟨-, -, -, -, e20, e21⟩ := idx4 ⟨(i 0).val / 10000, ht⟩
  show i ∈ ((View.whole main_v59).slice (win4_2.rect ⟨(i 0).val / 10000, ht⟩)).set
  rw [View.set_slice_whole, Rect.mem_set_unit]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e21]; omega

/-- The result array after the region: the gathered rows scaled by the weight column, as the region found them. -/
theorem final4 (c : Dev nD) : (dat4 V c).arrAt 2 cfg4.N = Cert.Layer.scale128 (V c main_v57) (V c main_v58) :=
  (dat4 V c).arrAt_eq_of_cover 2 _ (fun t _ => flushed4 V c t) (cover4)

end Cert.KernelIdeal.Hand

end
-- ==== Proof.Region5.lean ====
/-
  Epilogue region 5: the grid's 50 points each take rows 2000 t … 2000 t + 1999 of the summed messages and of the count
  column, and the one bias row, and write back those rows with every entry divided by its row's count and the bias of
  its column added, then clamped below at zero. Every row is in exactly the block of point (row / 2000), so the result array ends holding
  that function of the three arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- The block index maps over the grid: the message, count and result blocks move down with the point, the bias row stays. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A row of the first block at point t is row 2000 t + p of the summed messages. -/
theorem rows5 (c : Dev nD) (t : Fin cfg5.N) (p : Fin 2000) (q : Fin 128) (hrow : t.val * 2000 + p.val < 100000) :
    (iblk5 V c 0 t : S2000x128.Idx → EReal) (ix2 p q) = (V c main_v62 : S100000x128.Idx → EReal) (ix2 (⟨t.val * 2000 + p.val, hrow⟩ : Fin 100000) q) := by
  obtain ⟨e00, e01, -, -, -, -, -, -⟩ := idx5 t
  show (V c main_v62 : S100000x128.Idx → EReal) (((cfg5.win 0).blk t).view.emb (ix2 p q)) = _
  refine congrArg (V c main_v62 : S100000x128.Idx → EReal) ?_
  funext a
  apply Fin.ext
  match a with
  | ⟨0, _⟩ => show win5_0.index t (0 : Fin 2) * 2000 + 1 * p.val = t.val * 2000 + p.val; rw [e00]; omega
  | ⟨1, _⟩ => show win5_0.index t (1 : Fin 2) * 128 + 1 * q.val = q.val; rw [e01]; omega

/-- An entry of the column block at point t is entry 2000 t + p of the count column. -/
theorem col5 (c : Dev nD) (t : Fin cfg5.N) (p : Fin 2000) (hrow : t.val * 2000 + p.val < 100000) :
    (iblk5 V c 1 t : S2000x1.Idx → EReal) (ix2 p (0 : Fin 1)) = (V c main_v63 : S100000x1.Idx → EReal) (ix2 (⟨t.val * 2000 + p.val, hrow⟩ : Fin 100000) (0 : Fin 1)) := by
  obtain ⟨-, -, e10, e11, -, -, -, -⟩ := idx5 t
  show (V c main_v63 : S100000x1.Idx → EReal) (((cfg5.win 1).blk t).view.emb (ix2 p (0 : Fin 1))) = _
  refine congrArg (V c main_v63 : S100000x1.Idx → EReal) ?_
  funext a
  apply Fin.ext
  match a with
  | ⟨0, _⟩ => show win5_1.index t (0 : Fin 2) * 2000 + 1 * p.val = t.val * 2000 + p.val; rw [e10]; omega
  | ⟨1, _⟩ => show win5_1.index t (1 : Fin 2) * 1 + 1 * (0 : Fin 1).val = (0 : Fin 1).val; rw [e11]; rfl

/-- The bias block at every point is the whole bias row. -/
theorem bias5 (c : Dev nD) (t : Fin cfg5.N) (q : Fin 128) :
    (iblk5 V c 2 t : S1x128.Idx → EReal) (ix2 (0 : Fin 1) q) = (V c main_v64 : S1x128.Idx → EReal) (ix2 (0 : Fin 1) q) := by
  obtain ⟨-, -, -, -, e20, e21, -, -⟩ := idx5 t
  show (V c main_v64 : S1x128.Idx → EReal) (((cfg5.win 2).blk t).view.emb (ix2 (0 : Fin 1) q)) = _
  refine congrArg (V c main_v64 : S1x128.Idx → EReal) ?_
  funext a
  apply Fin.ext
  match a with
  | ⟨0, _⟩ => show win5_2.index t (0 : Fin 2) * 1 + 1 * (0 : Fin 1).val = (0 : Fin 1).val; rw [e20]; rfl
  | ⟨1, _⟩ => show win5_2.index t (1 : Fin 2) * 128 + 1 * q.val = q.val; rw [e21]; omega

/-- What point t writes back is block t of the epilogue of the three arrays. -/
theorem flushed5 (c : Dev nD) (t : Fin cfg5.N) :
    (dat5 V c).flushed 3 t = ((cfg5.win 3).blk t).view.read (Elt Ideal) (Cert.Layer.post128 (V c main_v62) (V c main_v63) (V c main_v64)) := by
  show (cfg5.win 3).cut (grid5.coords t) ((dat5 V c).after 3 t) = _
  rw [after5_3]
  unfold out5_3
  rw [View.canon_unit_zero hz5]
  simp only [View.ld_unit_zero (S := S2000x128) hz5, View.ld_unit_zero (S := S2000x1) hz5, View.ld_unit_zero (S := S1x128) hz5]
  obtain ⟨-, -, -, -, -, -, e30, e31⟩ := idx5 t
  have hN : t.val < 50 := t.isLt
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg5.win 3).blk t).view.emb (ix2 p q) = (ix2 (⟨t.val * 2000 + p.val, hrow⟩ : Fin 100000) q : S100000x128.Idx) := by
    funext a
    apply Fin.ext
    match a with
    | ⟨0, _⟩ => show win5_3.index t (0 : Fin 2) * 2000 + 1 * p.val = t.val * 2000 + p.val; rw [e30]; omega
    | ⟨1, _⟩ => show win5_3.index t (1 : Fin 2) * 128 + 1 * q.val = q.val; rw [e31]; omega
  show k5_pay1 (F := Ideal) (iblk5 V c 0 t) (iblk5 V c 1 t) (iblk5 V c 2 t) (ix2 p q) = Cert.Layer.post128 (V c main_v62) (V c main_v63) (V c main_v64) (((cfg5.win 3).blk t).view.emb (ix2 p q))
  rw [hemb]
  refine (pay5 (iblk5 V c 0 t) (iblk5 V c 1 t) (iblk5 V c 2 t) p q).trans ?_
  refine Eq.trans ?_ (Cert.Layer.post128_at (V c main_v62) (V c main_v63) (V c main_v64) ⟨_, hrow⟩ q).symm
  rw [rows5 V c t p q hrow, col5 V c t p hrow, bias5 V c t q]

/-- Every entry of the result array is in the block of the point its row falls in. -/
theorem cover5 (i : S100000x128.Idx) : ∃ t : Fin cfg5.N, (cfg5.win 3).flush t = true ∧ i ∈ ((cfg5.win 3).blk t).view.set := by
  have h0 : (i 0).val < 100000 := (i 0).isLt
  have h1 : (i 1).val < 128 := (i 1).isLt
  have ht : (i 0).val / 2000 < 50 := by omega
  refine ⟨⟨(i 0).val / 2000, ht⟩, flush5_3 _, ?_⟩
  obtain ⟨-, -, -, -, -, -, e30, e31⟩ := idx5 ⟨(i 0).val / 2000, ht⟩
  show i ∈ ((View.whole main_v65).slice (win5_3.rect ⟨(i 0).val / 2000, ht⟩)).set
  rw [View.set_slice_whole, Rect.mem_set_unit]
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win5_3.index ⟨(i 0).val / 2000, ht⟩ (1 : Fin 2) * 128 ≤ (i 1).val ∧ (i 1).val < win5_3.index ⟨(i 0).val / 2000, ht⟩ (1 : Fin 2) * 128 + 128
    rw [e31]; omega

/-- The result array after the region: the epilogue of the three arrays as the region found them. -/
theorem final5 (c : Dev nD) : (dat5 V c).arrAt 3 cfg5.N = Cert.Layer.post128 (V c main_v62) (V c main_v63) (V c main_v64) :=
  (dat5 V c).arrAt_eq_of_cover 3 _ (fun t _ => flushed5 V c t) (cover5)

end Cert.KernelIdeal.Hand

end
-- ==== Proof.Region6.lean ====
/-
  Product region 6: the grid's 50 points each take rows 2000 t … 2000 t + 1999 of the left array and the whole right
  array, and write back those rows of the product. Every row is in exactly the block of point (row / 2000), so the
  result array ends holding the whole product of the two arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- The block index maps over the grid: the left and result blocks move down with the point, the right block stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- A row of the left block at point t is row 2000 t + p of the left array. -/
theorem left6 (c : Dev nD) (t : Fin cfg6.N) (p : Fin 2000) (k : Fin 128) (hrow : t.val * 2000 + p.val < 100000) :
    (iblk6 V c 0 t : S2000x128.Idx → EReal) (ix2 p k) = (V c main_v65 : S100000x128.Idx → EReal) (ix2 (⟨t.val * 2000 + p.val, hrow⟩ : Fin 100000) k) := by
  obtain ⟨e00, e01, -, -, -, -⟩ := idx6 t
  show (V c main_v65 : S100000x128.Idx → EReal) (((cfg6.win 0).blk t).view.emb (ix2 p k)) = _
  refine congrArg (V c main_v65 : S100000x128.Idx → EReal) ?_
  funext a
  apply Fin.ext
  match a with
  | ⟨0, _⟩ => show win6_0.index t (0 : Fin 2) * 2000 + 1 * p.val = t.val * 2000 + p.val; rw [e00]; omega
  | ⟨1, _⟩ => show win6_0.index t (1 : Fin 2) * 128 + 1 * k.val = k.val; rw [e01]; omega

/-- The right block at every point is the whole right array. -/
theorem right6 (c : Dev nD) (t : Fin cfg6.N) (k : Fin 128) (q : Fin 64) :
    (iblk6 V c 1 t : S128x64.Idx → EReal) (ix2 k q) = (V c main_arg6 : S128x64.Idx → EReal) (ix2 k q) := by
  obtain ⟨-, -, e10, e11, -, -⟩ := idx6 t
  show (V c main_arg6 : S128x64.Idx → EReal) (((cfg6.win 1).blk t).view.emb (ix2 k q)) = _
  refine congrArg (V c main_arg6 : S128x64.Idx → EReal) ?_
  funext a
  apply Fin.ext
  match a with
  | ⟨0, _⟩ => show win6_1.index t (0 : Fin 2) * 128 + 1 * k.val = k.val; rw [e10]; omega
  | ⟨1, _⟩ => show win6_1.index t (1 : Fin 2) * 64 + 1 * q.val = q.val; rw [e11]; omega

/-- What point t writes back is block t of the product of the two arrays. -/
theorem flushed6 (c : Dev nD) (t : Fin cfg6.N) :
    (dat6 V c).flushed 2 t = ((cfg6.win 2).blk t).view.read (Elt Ideal) (Cert.Layer.mat64 (V c main_v65) (V c main_arg6)) := by
  show (cfg6.win 2).cut (grid6.coords t) ((dat6 V c).after 2 t) = _
  rw [after6_2]
  unfold out6_2
  rw [View.canon_unit_zero hz6]
  simp only [View.ld_unit_zero (S := S2000x128) hz6, View.ld_unit_zero (S := S128x64) hz6]
  obtain ⟨-, -, -, -, e20, e21⟩ := idx6 t
  have hN : t.val < 50 := t.isLt
  funext j
  obtain ⟨p, q, rfl⟩ : ∃ (p : Fin 2000) (q : Fin 64), j = ix2 p q := ⟨j 0, j 1, eq_ix2 j⟩
  have hrow : t.val * 2000 + p.val < 100000 := by have := p.isLt; omega
  have hemb : ((cfg6.win 2).blk t).view.emb (ix2 p q) = (ix2 (⟨t.val * 2000 + p.val, hrow⟩ : Fin 100000) q : S100000x64.Idx) := by
    funext a
    apply Fin.ext
    match a with
    | ⟨0, _⟩ => show win6_2.index t (0 : Fin 2) * 2000 + 1 * p.val = t.val * 2000 + p.val; rw [e20]; omega
    | ⟨1, _⟩ => show win6_2.index t (1 : Fin 2) * 64 + 1 * q.val = q.val; rw [e21]; omega
  show k6_pay1 (F := Ideal) (iblk6 V c 0 t) (iblk6 V c 1 t) (ix2 p q) = Cert.Layer.mat64 (V c main_v65) (V c main_arg6) (((cfg6.win 2).blk t).view.emb (ix2 p q))
  rw [hemb]
  refine (pay6 (iblk6 V c 0 t) (iblk6 V c 1 t) p q).trans ?_
  refine Eq.trans ?_ (Cert.Layer.mat64_at (V c main_v65) (V c main_arg6) ⟨_, hrow⟩ q).symm
  refine Finset.sum_congr rfl fun k _ => ?_
  rw [left6 V c t p k hrow, right6 V c t k q]

/-- Every entry of the result array is in the block of the point its row falls in. -/
theorem cover6 (i : S100000x64.Idx) : ∃ t : Fin cfg6.N, (cfg6.win 2).flush t = true ∧ i ∈ ((cfg6.win 2).blk t).view.set := by
  have h0 : (i 0).val < 100000 := (i 0).isLt
  have h1 : (i 1).val < 64 := (i 1).isLt
  have ht : (i 0).val / 2000 < 50 := by omega
  refine ⟨⟨(i 0).val / 2000, ht⟩, flush6_2 _, ?_⟩
  obtain ⟨-, -, -, -, e20, e21⟩ := idx6 ⟨(i 0).val / 2000, ht⟩
  show i ∈ ((View.whole main_v66).slice (win6_2.rect ⟨(i 0).val / 2000, ht⟩)).set
  rw [View.set_slice_whole, Rect.mem_set_unit]
  intro a
  match a with
  | ⟨0, _⟩ =>
    show win6_2.index ⟨(i 0).val / 2000, ht⟩ (0 : Fin 2) * 2000 ≤ (i 0).val ∧ (i 0).val < win6_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win6_2.index ⟨(i 0).val / 2000, ht⟩ (1 : Fin 2) * 64 ≤ (i 1).val ∧ (i 1).val < win6_2.index ⟨(i 0).val / 2000, ht⟩ (1 : Fin 2) * 64 + 64
    rw [e21]; omega

/-- The result array after the region: the product of the two arrays as the region found them. -/
theorem final6 (c : Dev nD) : (dat6 V c).arrAt 2 cfg6.N = Cert.Layer.mat64 (V c main_v65) (V c main_arg6) :=
  (dat6 V c).arrAt_eq_of_cover 2 _ (fun t _ => flushed6 V c t) (cover6)

end Cert.KernelIdeal.Hand

end
-- ==== Proof.Region7.lean ====
/-
  Scaling region 7: the grid's 170 points each take rows 10000 t … 10000 t + 9999 of the gathered rows and of the
  weight column, and write back those rows with every entry multiplied by its row's weight. Every row is in exactly
  the block of point (row / 10000), so the result array ends holding the weight column repeated along the columns times
  the gathered rows, entry by entry (the two factors in the host's order: multiplication of extended reals commutes).
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz7 : (![0, 0] : Fin 2 → Nat) = fun _ => 0 := funext fun a => by fin_cases a <;> rfl

/-- The block index maps over the grid: all three blocks move down with the point. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- A row of the first block at point t is row 10000 t + p of the gathered rows. -/
theorem rows7 (c : Dev nD) (t : Fin cfg7.N) (p : Fin 10000) (q : Fin 64) (hrow : t.val * 10000 + p.val < 1700000) :
    (iblk7 V c 0 t : S10000x64.Idx → EReal) (ix2 p q) = (V c main_v73 : S1700000x64.Idx → EReal) (ix2 (⟨t.val * 10000 + p.val, hrow⟩ : Fin 1700000) q) := by
  obtain ⟨e00, e01, -, -, -, -⟩ := idx7 t
  show (V c main_v73 : S1700000x64.Idx → EReal) (((cfg7.win 0).blk t).view.emb (ix2 p q)) = _
  refine congrArg (V c main_v73 : S1700000x64.Idx → EReal) ?_
  funext a
  apply Fin.ext
  match a with
  | ⟨0, _⟩ => show win7_0.index t (0 : Fin 2) * 10000 + 1 * p.val = t.val * 10000 + p.val; rw [e00]; omega
  | ⟨1, _⟩ => show win7_0.index t (1 : Fin 2) * 64 + 1 * q.val = q.val; rw [e01]; omega

/-- An entry of the column block at point t is entry 10000 t + p of the weight column. -/
theorem col7 (c : Dev nD) (t : Fin cfg7.N) (p : Fin 10000) (hrow : t.val * 10000 + p.val < 1700000) :
    (iblk7 V c 1 t : S10000x1.Idx → EReal) (ix2 p (0 : Fin 1)) = (V c main_v74 : S1700000x1.Idx → EReal) (ix2 (⟨t.val * 10000 + p.val, hrow⟩ : Fin 1700000) (0 : Fin 1)) := by
  obtain ⟨-, -, e10, e11, -, -⟩ := idx7 t
  show (V c main_v74 : S1700000x1.Idx → EReal) (((cfg7.win 1).blk t).view.emb (ix2 p (0 : Fin 1))) = _
  refine congrArg (V c main_v74 : S1700000x1.Idx → EReal) ?_
  funext a
  apply Fin.ext
  match a with
  | ⟨0, _⟩ => show win7_1.index t (0 : Fin 2) * 10000 + 1 * p.val = t.val * 10000 + p.val; rw [e10]; omega
  | ⟨1, _⟩ => show win7_1.index t (1 : Fin 2) * 1 + 1 * (0 : Fin 1).val = (0 : Fin 1).val; rw [e11]; rfl

/-- What point t writes back is block t of the scaled rows. -/
theorem flushed7 (c : Dev nD) (t : Fin cfg7.N) :
    (dat7 V c).flushed 2 t = ((cfg7.win 2).blk t).view.read (Elt Ideal) (Cert.Layer.scale64 (V c main_v73) (V c main_v74)) := by
  show (cfg7.win 2).cut (grid7.coords t) ((dat7 V c).after 2 t) = _
  rw [after7_2]
  unfold out7_2
  rw [View.canon_unit_zero hz7]
  simp only [View.ld_unit_zero (S := S10000x64) hz7, View.ld_unit_zero (S := S10000x1) hz7]
  obtain ⟨-, -, -, -, e20, e21⟩ := idx7 t
  have hN : t.val < 170 := t.isLt
  funext j
  obtain ⟨p, q, rfl⟩ : ∃ (p : Fin 10000) (q : Fin 64), j = ix2 p q := ⟨j 0, j 1, eq_ix2 j⟩
  have hrow : t.val * 10000 + p.val < 1700000 := by have := p.isLt; omega
  have hemb : ((cfg7.win 2).blk t).view.emb (ix2 p q) = (ix2 (⟨t.val * 10000 + p.val, hrow⟩ : Fin 1700000) q : S1700000x64.Idx) := by
    funext a
    apply Fin.ext
    match a with
    | ⟨0, _⟩ => show win7_2.index t (0 : Fin 2) * 10000 + 1 * p.val = t.val * 10000 + p.val; rw [e20]; omega
    | ⟨1, _⟩ => show win7_2.index t (1 : Fin 2) * 64 + 1 * q.val = q.val; rw [e21]; omega
  show k7_pay1 (F := Ideal) (iblk7 V c 0 t) (iblk7 V c 1 t) (ix2 p q) = Cert.Layer.scale64 (V c main_v73) (V c main_v74) (((cfg7.win 2).blk t).view.emb (ix2 p q))
  rw [hemb]
  refine (pay7 (iblk7 V c 0 t) (iblk7 V c 1 t) p q).trans ?_
  refine Eq.trans ?_ (Cert.Layer.scale64_at (V c main_v73) (V c main_v74) ⟨_, hrow⟩ q).symm
  rw [rows7 V c t p q hrow, col7 V c t p hrow]
  exact mul_comm _ _

/-- Every entry of the result array is in the block of the point its row falls in. -/
theorem cover7 (i : S1700000x64.Idx) : ∃ t : Fin cfg7.N, (cfg7.win 2).flush t = true ∧ i ∈ ((cfg7.win 2).blk t).view.set := by
  have h0 : (i 0).val < 1700000 := (i 0).isLt
  have h1 : (i 1).val < 64 := (i 1).isLt
  have ht : (i 0).val / 10000 < 170 := by omega
  refine ⟨⟨(i 0).val / 10000, ht⟩, flush7_2 _, ?_⟩
  obtain ⟨-, -, -, -, e20, e21⟩ := idx7 ⟨(i 0).val / 10000, ht⟩
  show i ∈ ((View.whole main_v75).slice (win7_2.rect ⟨(i 0).val / 10000, ht⟩)).set
  rw [View.set_slice_whole, Rect.mem_set_unit]
  intro a
  match a with
  | ⟨0, _⟩ =>
    show win7_2.index ⟨(i 0).val / 10000, ht⟩ (0 : Fin 2) * 10000 ≤ (i 0).val ∧ (i 0).val < win7_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win7_2.index ⟨(i 0).val / 10000, ht⟩ (1 : Fin 2) * 64 ≤ (i 1).val ∧ (i 1).val < win7_2.index ⟨(i 0).val / 10000, ht⟩ (1 : Fin 2) * 64 + 64
    rw [e21]; omega

/-- The result array after the region: the gathered rows scaled by the weight column, as the region found them. -/
theorem final7 (c : Dev nD) : (dat7 V c).arrAt 2 cfg7.N = Cert.Layer.scale64 (V c main_v73) (V c main_v74) :=
  (dat7 V c).arrAt_eq_of_cover 2 _ (fun t _ => flushed7 V c t) (cover7)

end Cert.KernelIdeal.Hand

end
-- ==== Proof.Region8.lean ====
/-
  Epilogue region 8: the grid's 50 points each take rows 2000 t … 2000 t + 1999 of the summed messages and of the count
  column, and the one bias row, and write back those rows with every entry divided by its row's count and the bias of
  its column added. Every row is in exactly the block of point (row / 2000), so the result array ends holding
  that function of the three arrays as the region found them.
-/
import proofs.«178718_j29798483100071_1_alg».proof.Proof.Gen.KernelIdeal.Frame
import proofs.«178718_j29798483100071_1_alg».proof.Proof.Pay
import proofs.«178718_j29798483100071_1_alg».proof.Proof.Host
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz8 : (![0, 0] : Fin 2 → Nat) = fun _ => 0 := funext fun a => by fin_cases a <;> rfl

/-- The block index maps over the grid: the message, count and result blocks move down with the point, the bias row stays. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- A row of the first block at point t is row 2000 t + p of the summed messages. -/
theorem rows8 (c : Dev nD) (t : Fin cfg8.N) (p : Fin 2000) (q : Fin 64) (hrow : t.val * 2000 + p.val < 100000) :
    (iblk8 V c 0 t : S2000x64.Idx → EReal) (ix2 p q) = (V c main_v78 : S100000x64.Idx → EReal) (ix2 (⟨t.val * 2000 + p.val, hrow⟩ : Fin 100000) q) := by
  obtain ⟨e00, e01, -, -, -, -, -, -⟩ := idx8 t
  show (V c main_v78 : S100000x64.Idx → EReal) (((cfg8.win 0).blk t).view.emb (ix2 p q)) = _
  refine congrArg (V c main_v78 : S100000x64.Idx → EReal) ?_
  funext a
  apply Fin.ext
  match a with
  | ⟨0, _⟩ => show win8_0.index t (0 : Fin 2) * 2000 + 1 * p.val = t.val * 2000 + p.val; rw [e00]; omega
  | ⟨1, _⟩ => show win8_0.index t (1 : Fin 2) * 64 + 1 * q.val = q.val; rw [e01]; omega

/-- An entry of the column block at point t is entry 2000 t + p of the count column. -/
theorem col8 (c : Dev nD) (t : Fin cfg8.N) (p : Fin 2000) (hrow : t.val * 2000 + p.val < 100000) :
    (iblk8 V c 1 t : S2000x1.Idx → EReal) (ix2 p (0 : Fin 1)) = (V c main_v79 : S100000x1.Idx → EReal) (ix2 (⟨t.val * 2000 + p.val, hrow⟩ : Fin 100000) (0 : Fin 1)) := by
  obtain ⟨-, -, e10, e11, -, -, -, -⟩ := idx8 t
  show (V c main_v79 : S100000x1.Idx → EReal) (((cfg8.win 1).blk t).view.emb (ix2 p (0 : Fin 1))) = _
  refine congrArg (V c main_v79 : S100000x1.Idx → EReal) ?_
  funext a
  apply Fin.ext
  match a with
  | ⟨0, _⟩ => show win8_1.index t (0 : Fin 2) * 2000 + 1 * p.val = t.val * 2000 + p.val; rw [e10]; omega
  | ⟨1, _⟩ => show win8_1.index t (1 : Fin 2) * 1 + 1 * (0 : Fin 1).val = (0 : Fin 1).val; rw [e11]; rfl

/-- The bias block at every point is the whole bias row. -/
theorem bias8 (c : Dev nD) (t : Fin cfg8.N) (q : Fin 64) :
    (iblk8 V c 2 t : S1x64.Idx → EReal) (ix2 (0 : Fin 1) q) = (V c main_v80 : S1x64.Idx → EReal) (ix2 (0 : Fin 1) q) := by
  obtain ⟨-, -, -, -, e20, e21, -, -⟩ := idx8 t
  show (V c main_v80 : S1x64.Idx → EReal) (((cfg8.win 2).blk t).view.emb (ix2 (0 : Fin 1) q)) = _
  refine congrArg (V c main_v80 : S1x64.Idx → EReal) ?_
  funext a
  apply Fin.ext
  match a with
  | ⟨0, _⟩ => show win8_2.index t (0 : Fin 2) * 1 + 1 * (0 : Fin 1).val = (0 : Fin 1).val; rw [e20]; rfl
  | ⟨1, _⟩ => show win8_2.index t (1 : Fin 2) * 64 + 1 * q.val = q.val; rw [e21]; omega

/-- What point t writes back is block t of the epilogue of the three arrays. -/
theorem flushed8 (c : Dev nD) (t : Fin cfg8.N) :
    (dat8 V c).flushed 3 t = ((cfg8.win 3).blk t).view.read (Elt Ideal) (Cert.Layer.post64 (V c main_v78) (V c main_v79) (V c main_v80)) := by
  show (cfg8.win 3).cut (grid8.coords t) ((dat8 V c).after 3 t) = _
  rw [after8_3]
  unfold out8_3
  rw [View.canon_unit_zero hz8]
  simp only [View.ld_unit_zero (S := S2000x64) hz8, View.ld_unit_zero (S := S2000x1) hz8, View.ld_unit_zero (S := S1x64) hz8]
  obtain ⟨-, -, -, -, -, -, e30, e31⟩ := idx8 t
  have hN : t.val < 50 := t.isLt
  funext j
  obtain ⟨p, q, rfl⟩ : ∃ (p : Fin 2000) (q : Fin 64), j = ix2 p q := ⟨j 0, j 1, eq_ix2 j⟩
  have hrow : t.val * 2000 + p.val < 100000 := by have := p.isLt; omega
  have hemb : ((cfg8.win 3).blk t).view.emb (ix2 p q) = (ix2 (⟨t.val * 2000 + p.val, hrow⟩ : Fin 100000) q : S100000x64.Idx) := by
    funext a
    apply Fin.ext
    match a with
    | ⟨0, _⟩ => show win8_3.index t (0 : Fin 2) * 2000 + 1 * p.val = t.val * 2000 + p.val; rw [e30]; omega
    | ⟨1, _⟩ => show win8_3.index t (1 : Fin 2) * 64 + 1 * q.val = q.val; rw [e31]; omega
  show k8_pay1 (F := Ideal) (iblk8 V c 0 t) (iblk8 V c 1 t) (iblk8 V c 2 t) (ix2 p q) = Cert.Layer.post64 (V c main_v78) (V c main_v79) (V c main_v80) (((cfg8.win 3).blk t).view.emb (ix2 p q))
  rw [hemb]
  refine (pay8 (iblk8 V c 0 t) (iblk8 V c 1 t) (iblk8 V c 2 t) p q).trans ?_
  refine Eq.trans ?_ (Cert.Layer.post64_at (V c main_v78) (V c main_v79) (V c main_v80) ⟨_, hrow⟩ q).symm
  rw [rows8 V c t p q hrow, col8 V c t p hrow, bias8 V c t q]

/-- Every entry of the result array is in the block of the point its row falls in. -/
theorem cover8 (i : S100000x64.Idx) : ∃ t : Fin cfg8.N, (cfg8.win 3).flush t = true ∧ i ∈ ((cfg8.win 3).blk t).view.set := by
  have h0 : (i 0).val < 100000 := (i 0).isLt
  have h1 : (i 1).val < 64 := (i 1).isLt
  have ht : (i 0).val / 2000 < 50 := by omega
  refine ⟨⟨(i 0).val / 2000, ht⟩, flush8_3 _, ?_⟩
  obtain ⟨-, -, -, -, -, -, e30, e31⟩ := idx8 ⟨(i 0).val / 2000, ht⟩
  show i ∈ ((View.whole main_v81).slice (win8_3.rect ⟨(i 0).val / 2000, ht⟩)).set
  rw [View.set_slice_whole, Rect.mem_set_unit]
  intro a
  match a with
  | ⟨0, _⟩ =>
    show win8_3.index ⟨(i 0).val / 2000, ht⟩ (0 : Fin 2) * 2000 ≤ (i 0).val ∧ (i 0).val < win8_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win8_3.index ⟨(i 0).val / 2000, ht⟩ (1 : Fin 2) * 64 ≤ (i 1).val ∧ (i 1).val < win8_3.index ⟨(i 0).val / 2000, ht⟩ (1 : Fin 2) * 64 + 64
    rw [e31]; omega

/-- The result array after the region: the epilogue of the three arrays as the region found them. -/
theorem final8 (c : Dev nD) : (dat8 V c).arrAt 3 cfg8.N = Cert.Layer.post64 (V c main_v78) (V c main_v79) (V c main_v80) :=
  (dat8 V c).arrAt_eq_of_cover 3 _ (fun t _ => flushed8 V c t) (cover8)

end Cert.KernelIdeal.Hand

end
-- ==== Proof.Chain.lean ====
/-
  The kernel program's result, boundary by boundary. Each stretch of host operations is read as the host's functions
  of what the buffers held before it; each region's result array is its whole-array function of the arrays it found;
  the values made once from the edge list are carried to where they are read. Composed, one layer's three regions and
  the gather and the sum over incoming edges between them are the layer function of the layer's input, and the result
  of the program is the three layers of the arguments.
-/
import proofs.«178718_j29798483100071_1_alg».proof.Proof.Gen.KernelIdeal.Frame
import proofs.«178718_j29798483100071_1_alg».proof.Proof.Walk
import proofs.«178718_j29798483100071_1_alg».proof.Proof.Prep
import proofs.«178718_j29798483100071_1_alg».proof.Proof.Region0
import proofs.«178718_j29798483100071_1_alg».proof.Proof.Region1
import proofs.«178718_j29798483100071_1_alg».proof.Proof.Region2
import proofs.«178718_j29798483100071_1_alg».proof.Proof.Region3
import proofs.«178718_j29798483100071_1_alg».proof.Proof.Region4
import proofs.«178718_j29798483100071_1_alg».proof.Proof.Region5
import proofs.«178718_j29798483100071_1_alg».proof.Proof.Region6
import proofs.«178718_j29798483100071_1_alg».proof.Proof.Region7
import proofs.«178718_j29798483100071_1_alg».proof.Proof.Region8
import proofs.«178718_j29798483100071_1_alg».proof.Proof.Layer
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem congr3 {α β γ δ : Sort _} (f : α → β → γ → δ) {a a' : α} {b b' : β} {c c' : γ} (ha : a = a') (hb : b = b') (hc : c = c') :
    f a b c = f a' b' c' := by subst ha hb hc; rfl

/-! ## Layer 1 -/

/-- The product region's result: the layer's input times its weights. -/
theorem hw1 (c : Dev nD) : W4 m ρ c (Proc.devRef .tc main_v34) = Cert.Layer.mat128 (m ((c : Thread nD τ).loc main_arg0)) (m ((c : Thread nD τ).loc main_arg2)) :=
  (W4_arr m ρ c 2).trans ((final0 (V3 m ρ) c).trans (congrArg₂ Cert.Layer.mat128 (arg0_at3 m ρ c) (arg2_at3 m ρ c)))

theorem readRows1 (c : Dev nD) : W5 m ρ c (Proc.devRef .tc main_v41) = Cert.Layer.gath128 (W4 m ρ c (Proc.devRef .tc main_v34)) (W4 m ρ c (Proc.devRef .tc main_v3)) := by
  show StableHlo.after hostOps1 (W4 m ρ c) (Proc.devRef .tc main_v41) = _
  after_results
  rfl

theorem readWeights1 (c : Dev nD) : W5 m ρ c (Proc.devRef .tc main_v42) = Cert.Layer.asCol (W4 m ρ c (Proc.devRef .tc main_v31)) := by
  show StableHlo.after hostOps1 (W4 m ρ c) (Proc.devRef .tc main_v42) = _
  after_results
  rfl

/-- The scaling region's result: every gathered row times its edge's weight. -/
theorem msg1 (c : Dev nD) : W6 m ρ c (Proc.devRef .tc main_v43) = Cert.Layer.scale128 (Cert.Layer.gath128 (Cert.Layer.mat128 (m ((c : Thread nD τ).loc main_arg0)) (m ((c : Thread nD τ).loc main_arg2))) (W3 m ρ c (Proc.devRef .tc main_v3))) (Cert.Layer.asCol (W3 m ρ c (Proc.devRef .tc main_v31))) :=
  (W6_arr m ρ c 2).trans ((final1 (V5 m ρ) c).trans (congrArg₂ Cert.Layer.scale128
    ((readRows1 m ρ c).trans (congrArg₂ Cert.Layer.gath128 (hw1 m ρ c) (v3_at4 m ρ c)))
    ((readWeights1 m ρ c).trans (congrArg Cert.Layer.asCol (v31_at4 m ρ c)))))

theorem readSum1 (c : Dev nD) : W7 m ρ c (Proc.devRef .tc main_v46) = Cert.Layer.sum128 (W6 m ρ c (Proc.devRef .tc main_v6)) (W6 m ρ c (Proc.devRef .tc main_v43)) := by
  show StableHlo.after hostOps2 (W6 m ρ c) (Proc.devRef .tc main_v46) = _
  after_results
  rfl

theorem readCounts1 (c : Dev nD) : W7 m ρ c (Proc.devRef .tc main_v47) = Cert.Layer.cntCol (W6 m ρ c (Proc.devRef .tc main_v33)) := by
  show StableHlo.after hostOps2 (W6 m ρ c) (Proc.devRef .tc main_v47) = _
  after_results
  rfl

theorem readBias1 (c : Dev nD) : W7 m ρ c (Proc.devRef .tc main_v48) = Cert.Layer.biasRow128 (W6 m ρ c (Proc.devRef .tc main_arg3)) := by
  show StableHlo.after hostOps2 (W6 m ρ c) (Proc.devRef .tc main_v48) = _
  after_results
  rfl

/-- The epilogue region's result: the layer of its input. -/
theorem out1 (c : Dev nD) : W8 m ρ c (Proc.devRef .tc main_v49) = Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33)) :=
  (W8_arr m ρ c 3).trans ((final2 (V7 m ρ) c).trans (congr3 Cert.Layer.post128
    ((readSum1 m ρ c).trans (congrArg₂ Cert.Layer.sum128 (v6_at6 m ρ c) (msg1 m ρ c)))
    ((readCounts1 m ρ c).trans (congrArg Cert.Layer.cntCol (v33_at6 m ρ c)))
    ((readBias1 m ρ c).trans (congrArg Cert.Layer.biasRow128 (arg3_at6 m ρ c)))))

/-! ## Layer 2 -/

/-- The product region's result: the layer's input times its weights. -/
theorem hw2 (c : Dev nD) : W9 m ρ c (Proc.devRef .tc main_v50) = Cert.Layer.mat128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4)) :=
  (W9_arr m ρ c 2).trans ((final3 (V8 m ρ) c).trans (congrArg₂ Cert.Layer.mat128 (out1 m ρ c) (arg4_at8 m ρ c)))

theorem readRows2 (c : Dev nD) : W10 m ρ c (Proc.devRef .tc main_v57) = Cert.Layer.gath128 (W9 m ρ c (Proc.devRef .tc main_v50)) (W9 m ρ c (Proc.devRef .tc main_v3)) := by
  show StableHlo.after hostOps4 (W9 m ρ c) (Proc.devRef .tc main_v57) = _
  after_results
  rfl

theorem readWeights2 (c : Dev nD) : W10 m ρ c (Proc.devRef .tc main_v58) = Cert.Layer.asCol (W9 m ρ c (Proc.devRef .tc main_v31)) := by
  show StableHlo.after hostOps4 (W9 m ρ c) (Proc.devRef .tc main_v58) = _
  after_results
  rfl

/-- The scaling region's result: every gathered row times its edge's weight. -/
theorem msg2 (c : Dev nD) : W11 m ρ c (Proc.devRef .tc main_v59) = Cert.Layer.scale128 (Cert.Layer.gath128 (Cert.Layer.mat128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4))) (W3 m ρ c (Proc.devRef .tc main_v3))) (Cert.Layer.asCol (W3 m ρ c (Proc.devRef .tc main_v31))) :=
  (W11_arr m ρ c 2).trans ((final4 (V10 m ρ) c).trans (congrArg₂ Cert.Layer.scale128
    ((readRows2 m ρ c).trans (congrArg₂ Cert.Layer.gath128 (hw2 m ρ c) (v3_at9 m ρ c)))
    ((readWeights2 m ρ c).trans (congrArg Cert.Layer.asCol (v31_at9 m ρ c)))))

theorem readSum2 (c : Dev nD) : W12 m ρ c (Proc.devRef .tc main_v62) = Cert.Layer.sum128 (W11 m ρ c (Proc.devRef .tc main_v6)) (W11 m ρ c (Proc.devRef .tc main_v59)) := by
  show StableHlo.after hostOps5 (W11 m ρ c) (Proc.devRef .tc main_v62) = _
  after_results
  rfl

theorem readCounts2 (c : Dev nD) : W12 m ρ c (Proc.devRef .tc main_v63) = Cert.Layer.cntCol (W11 m ρ c (Proc.devRef .tc main_v33)) := by
  show StableHlo.after hostOps5 (W11 m ρ c) (Proc.devRef .tc main_v63) = _
  after_results
  rfl

theorem readBias2 (c : Dev nD) : W12 m ρ c (Proc.devRef .tc main_v64) = Cert.Layer.biasRow128 (W11 m ρ c (Proc.devRef .tc main_arg5)) := by
  show StableHlo.after hostOps5 (W11 m ρ c) (Proc.devRef .tc main_v64) = _
  after_results
  rfl

/-- The epilogue region's result: the layer of its input. -/
theorem out2 (c : Dev nD) : W13 m ρ c (Proc.devRef .tc main_v65) = Cert.Layer.layer128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4)) (m ((c : Thread nD τ).loc main_arg5)) (W3 m ρ c (Proc.devRef .tc main_v3)) (W3 m ρ c (Proc.devRef .tc main_v6)) (W3 m ρ c (Proc.devRef .tc main_v31)) (W3 m ρ c (Proc.devRef .tc main_v33)) :=
  (W13_arr m ρ c 3).trans ((final5 (V12 m ρ) c).trans (congr3 Cert.Layer.post128
    ((readSum2 m ρ c).trans (congrArg₂ Cert.Layer.sum128 (v6_at11 m ρ c) (msg2 m ρ c)))
    ((readCounts2 m ρ c).trans (congrArg Cert.Layer.cntCol (v33_at11 m ρ c)))
    ((readBias2 m ρ c).trans (congrArg Cert.Layer.biasRow128 (arg5_at11 m ρ c)))))

/-! ## Layer 3 -/

/-- The product region's result: the layer's input times its weights. -/
theorem hw3 (c : Dev nD) : W14 m ρ c (Proc.devRef .tc main_v66) = Cert.Layer.mat64 (Cert.Layer.layer128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4)) (m ((c : Thread nD τ).loc main_arg5)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg6)) :=
  (W14_arr m ρ c 2).trans ((final6 (V13 m ρ) c).trans (congrArg₂ Cert.Layer.mat64 (out2 m ρ c) (arg6_at13 m ρ c)))

theorem readRows3 (c : Dev nD) : W15 m ρ c (Proc.devRef .tc main_v73) = Cert.Layer.gath64 (W14 m ρ c (Proc.devRef .tc main_v66)) (W14 m ρ c (Proc.devRef .tc main_v3)) := by
  show StableHlo.after hostOps7 (W14 m ρ c) (Proc.devRef .tc main_v73) = _
  after_results
  rfl

theorem readWeights3 (c : Dev nD) : W15 m ρ c (Proc.devRef .tc main_v74) = Cert.Layer.asCol (W14 m ρ c (Proc.devRef .tc main_v31)) := by
  show StableHlo.after hostOps7 (W14 m ρ c) (Proc.devRef .tc main_v74) = _
  after_results
  rfl

/-- The scaling region's result: every gathered row times its edge's weight. -/
theorem msg3 (c : Dev nD) : W16 m ρ c (Proc.devRef .tc main_v75) = Cert.Layer.scale64 (Cert.Layer.gath64 (Cert.Layer.mat64 (Cert.Layer.layer128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4)) (m ((c : Thread nD τ).loc main_arg5)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg6))) (W3 m ρ c (Proc.devRef .tc main_v3))) (Cert.Layer.asCol (W3 m ρ c (Proc.devRef .tc main_v31))) :=
  (W16_arr m ρ c 2).trans ((final7 (V15 m ρ) c).trans (congrArg₂ Cert.Layer.scale64
    ((readRows3 m ρ c).trans (congrArg₂ Cert.Layer.gath64 (hw3 m ρ c) (v3_at14 m ρ c)))
    ((readWeights3 m ρ c).trans (congrArg Cert.Layer.asCol (v31_at14 m ρ c)))))

theorem readSum3 (c : Dev nD) : W17 m ρ c (Proc.devRef .tc main_v78) = Cert.Layer.sum64 (W16 m ρ c (Proc.devRef .tc main_v6)) (W16 m ρ c (Proc.devRef .tc main_v75)) := by
  show StableHlo.after hostOps8 (W16 m ρ c) (Proc.devRef .tc main_v78) = _
  after_results
  rfl

theorem readCounts3 (c : Dev nD) : W17 m ρ c (Proc.devRef .tc main_v79) = Cert.Layer.cntCol (W16 m ρ c (Proc.devRef .tc main_v33)) := by
  show StableHlo.after hostOps8 (W16 m ρ c) (Proc.devRef .tc main_v79) = _
  after_results
  rfl

theorem readBias3 (c : Dev nD) : W17 m ρ c (Proc.devRef .tc main_v80) = Cert.Layer.biasRow64 (W16 m ρ c (Proc.devRef .tc main_arg7)) := by
  show StableHlo.after hostOps8 (W16 m ρ c) (Proc.devRef .tc main_v80) = _
  after_results
  rfl

/-- The epilogue region's result: the layer of its input. -/
theorem out3 (c : Dev nD) : W18 m ρ c (Proc.devRef .tc main_v81) = Cert.Layer.layer64 (Cert.Layer.layer128 (Cert.Layer.layer128 (m ((c : Thread nD τ).loc main_arg0)) (m ((c : Thread nD τ).loc main_arg2)) (m ((c : Thread nD τ).loc main_arg3)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg4)) (m ((c : Thread nD τ).loc main_arg5)) (W3 m ρ c (Proc.devRef .tc main_v3)) (W3 m ρ c (Proc.devRef .tc main_v6)) (W3 m ρ c (Proc.devRef .tc main_v31)) (W3 m ρ c (Proc.devRef .tc main_v33))) (m ((c : Thread nD τ).loc main_arg6)) (m ((c : Thread nD τ).loc main_arg7)) (W3 m ρ c (Proc.devRef .tc main_v3)) (W3 m ρ c (Proc.devRef .tc main_v6)) (W3 m ρ c (Proc.devRef .tc main_v31)) (W3 m ρ c (Proc.devRef .tc main_v33)) :=
  (W18_arr m ρ c 3).trans ((final8 (V17 m ρ) c).trans (congr3 Cert.Layer.post64
    ((readSum3 m ρ c).trans (congrArg₂ Cert.Layer.sum64 (v6_at16 m ρ c) (msg3 m ρ c)))
    ((readCounts3 m ρ c).trans (congrArg Cert.Layer.cntCol (v33_at16 m ρ c)))
    ((readBias3 m ρ c).trans (congrArg Cert.Layer.biasRow64 (arg7_at16 m ρ c)))))

/-! ## The whole program -/

/-- The result array after the last region: the three layers of the eight arguments. -/
theorem result_eq (c : Dev nD) : W18 m ρ c (Proc.devRef .tc main_v81)
    = Cert.Layer.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [out3 m ρ c, src_eq m ρ c, dst_eq m ρ c, nrm_eq m ρ c, cnt_eq m ρ c]
  rfl

end Cert.KernelIdeal.Hand

end
-- ==== Proof.lean ====
/-
  A three-layer graph convolution over 100000 nodes and 1600000 edges (a self loop appended per node), computed two ways.
  Each layer is  h ↦ ( Σ over the edges into a node of  w(edge) * (h · W)[source of the edge] ) / count(node) + bias,
  the first two layers clamped below at zero; w(edge) = 1/sqrt(deg(source)) * 1/sqrt(deg(target)) (0 where deg is not
  positive), deg the number of edges into a node, count = max(deg, 1).
  The kernel program computes a layer in three tiled regions — the dense product h · W in row blocks of 2000, the scaling
  of the gathered rows by the edge weights in row blocks of 10000, the division by the counts with the bias added in row
  blocks of 2000 — with the host's gather and its sum over incoming edges between them; the reference computes all of it on
  the host. At the ideal values the two agree entry by entry: a change of float format is the identity, a tiled product
  into a zero accumulator is the same sum over the contracted axis as the host's product, every row of an array lies in
  exactly one block of its region, and weight * row = row * weight on the extended reals. No law that needs finiteness
  is used, so the precondition is never opened.
  The idealization changes no operation of the kernel program (its ledger is empty), so there is nothing to preserve.
-/
import proofs.«178718_j29798483100071_1_alg».proof.Defs
import proofs.«178718_j29798483100071_1_alg».proof.Proof.Gen.Kernel
import proofs.«178718_j29798483100071_1_alg».proof.Proof.Gen.Kernel.Skeleton
import proofs.«178718_j29798483100071_1_alg».proof.Proof.Gen.Kernel.Launch
import proofs.«178718_j29798483100071_1_alg».proof.Proof.Gen.Kernel.Points
import proofs.«178718_j29798483100071_1_alg».proof.Proof.Gen.Kernel.Frame
import proofs.«178718_j29798483100071_1_alg».proof.Proof.Gen.KernelIdeal
import proofs.«178718_j29798483100071_1_alg».proof.Proof.Gen.KernelIdeal.Skeleton
import proofs.«178718_j29798483100071_1_alg».proof.Proof.Gen.KernelIdeal.Launch
import proofs.«178718_j29798483100071_1_alg».proof.Proof.Gen.KernelIdeal.Points
import proofs.«178718_j29798483100071_1_alg».proof.Proof.Gen.KernelIdeal.Frame
import proofs.«178718_j29798483100071_1_alg».proof.Proof.Gen.ReferenceIdeal
import proofs.«178718_j29798483100071_1_alg».proof.Proof.Gen.Pre_finite_inputs
import proofs.«178718_j29798483100071_1_alg».proof.Proof.RefRun
import proofs.«178718_j29798483100071_1_alg».proof.Proof.Layer
import proofs.«178718_j29798483100071_1_alg».proof.Proof.KRun
import proofs.«178718_j29798483100071_1_alg».proof.Proof.Chain
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs, from memories that agree on the arguments, end with the three layers of the arguments in their result
    arrays: the kernel program by its regions' whole-array functions composed along its run, the reference by its run's
    composed term, which is the same three layers. -/
theorem algebraic : Cert.algebraic_KernelIdeal_ReferenceIdeal := by
  intro m ρ m' ρ' _ hagree
  refine ⟨fun c => Cert.Layer.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Layer.ref_eq m' c]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
